-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x400000 : Shape := ⟨2, ![2, 400000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256x64 .f32) (main_arg6 : FVec F S64 .f32) (main_arg7 : FVec F S256x64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  main_v33

def fn {F : FTy → Type} [FloatOps F] (main_arg0 : FVec F S100000x128 .f32) (main_arg1 : IVec S2x400000 32) (main_arg2 : FVec F S128x256 .f32) (main_arg3 : FVec F S256 .f32) (main_arg4 : FVec F S128x256 .f32) (main_arg5 : FVec F S256x64 .f32) (main_arg6 : FVec F S64 .f32) (main_arg7 : FVec F S256x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S100000x128 : Shape := ⟨2, ![100000, 128]⟩
abbrev S2x400000 : Shape := ⟨2, ![2, 400000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x400000 : Shape := ⟨2, ![1, 400000]⟩
abbrev S400000 : Shape := ⟨1, ![400000]⟩
abbrev S_ : Shape := ⟨0, ![]⟩
abbrev S100000 : Shape := ⟨1, ![100000]⟩
abbrev S400000x1 : Shape := ⟨2, ![400000, 1]⟩
abbrev S100000x1 : Shape := ⟨2, ![100000, 1]⟩
abbrev S400000x128 : Shape := ⟨2, ![400000, 128]⟩
abbrev S1x256 : Shape := ⟨2, ![1, 256]⟩
abbrev S100000x256 : Shape := ⟨2, ![100000, 256]⟩
abbrev S100000x64 : Shape := ⟨2, ![100000, 64]⟩
abbrev S2000x128 : Shape := ⟨2, ![2000, 128]⟩
abbrev S2000x1 : Shape := ⟨2, ![2000, 1]⟩
abbrev S2000x256 : Shape := ⟨2, ![2000, 256]⟩
abbrev S2000x64 : Shape := ⟨2, ![2000, 64]⟩
abbrev S400000x64 : Shape := ⟨2, ![400000, 64]⟩
abbrev S1x64 : Shape := ⟨2, ![1, 64]⟩
abbrev S5000x64 : Shape := ⟨2, ![5000, 64]⟩
abbrev S5000x256 : Shape := ⟨2, ![5000, 256]⟩
abbrev S5000x1 : Shape := ⟨2, ![5000, 1]⟩

abbrev nBuf : Space → Nat
  | .hbm => 60
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x64, .f32⟩
  | .hbm, ⟨6, _⟩ => ⟨S64, .f32⟩
  | .hbm, ⟨7, _⟩ => ⟨S256x64, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .f32⟩
  | .hbm, ⟨13, _⟩ => ⟨S400000, .f32⟩
  | .hbm, ⟨14, _⟩ => ⟨S_, .f32⟩
  | .hbm, ⟨15, _⟩ => ⟨S100000, .f32⟩
  | .hbm, ⟨16, _⟩ => ⟨S400000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S400000, .i32⟩
  | .hbm, ⟨27, _⟩ => ⟨S400000, .i1⟩
  | .hbm, ⟨28, _⟩ => ⟨S_, .i32⟩
  | .hbm, ⟨29, _⟩ => ⟨S400000, .i32⟩
  | .hbm, ⟨30, _⟩ => ⟨S400000, .i32⟩
  | .hbm, ⟨31, _⟩ => ⟨S400000, .i32⟩
  | .hbm, ⟨32, _⟩ => ⟨S400000x1, .i32⟩
  | .hbm, ⟨33, _⟩ => ⟨S400000x128, .f32⟩
  | .hbm, ⟨34, _⟩ => ⟨S_, .f32⟩
  | .hbm, ⟨35, _⟩ => ⟨S100000x128, .f32⟩
  | .hbm, ⟨36, _⟩ => ⟨S400000x1, .i32⟩
  | .hbm, ⟨37, _⟩ => ⟨S100000x128, .f32⟩
  | .hbm, ⟨38, _⟩ => ⟨S128x256, .bf16⟩
  | .hbm, ⟨39, _⟩ => ⟨S128x256, .bf16⟩
  | .hbm, ⟨40, _⟩ => ⟨S256x64, .bf16⟩
  | .hbm, ⟨41, _⟩ => ⟨S1x256, .f32⟩
  | .hbm, ⟨42, _⟩ => ⟨S100000x256, .bf16⟩
  | .hbm, ⟨43, _⟩ => ⟨S100000x64, .f32⟩
  | .hbm, ⟨44, _⟩ => ⟨S_, .i32⟩
  | .hbm, ⟨45, _⟩ => ⟨S400000, .i32⟩
  | .hbm, ⟨46, _⟩ => ⟨S400000, .i1⟩
  | .hbm, ⟨47, _⟩ => ⟨S_, .i32⟩
  | .hbm, ⟨48, _⟩ => ⟨S400000, .i32⟩
  | .hbm, ⟨49, _⟩ => ⟨S400000, .i32⟩
  | .hbm, ⟨50, _⟩ => ⟨S400000, .i32⟩
  | .hbm, ⟨51, _⟩ => ⟨S400000x1, .i32⟩
  | .hbm, ⟨52, _⟩ => ⟨S400000x64, .f32⟩
  | .hbm, ⟨53, _⟩ => ⟨S_, .f32⟩
  | .hbm, ⟨54, _⟩ => ⟨S100000x64, .f32⟩
  | .hbm, ⟨55, _⟩ => ⟨S400000x1, .i32⟩
  | .hbm, ⟨56, _⟩ => ⟨S100000x64, .f32⟩
  | .hbm, ⟨57, _⟩ => ⟨S256x64, .bf16⟩
  | .hbm, ⟨58, _⟩ => ⟨S1x64, .f32⟩
  | .hbm, ⟨59, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S256x64, .bf16⟩
  | .local _ .vmem, ⟨10, _⟩ => ⟨S2000x256, .bf16⟩
  | .local _ .vmem, ⟨11, _⟩ => ⟨S2000x256, .bf16⟩
  | .local _ .vmem, ⟨12, _⟩ => ⟨S2000x64, .f32⟩
  | .local _ .vmem, ⟨13, _⟩ => ⟨S2000x64, .f32⟩
  | .local _ .vmem, ⟨14, _⟩ => ⟨S5000x64, .f32⟩
  | .local _ .vmem, ⟨15, _⟩ => ⟨S5000x64, .f32⟩
  | .local _ .vmem, ⟨16, _⟩ => ⟨S5000x256, .bf16⟩
  | .local _ .vmem, ⟨17, _⟩ => ⟨S5000x256, .bf16⟩
  | .local _ .vmem, ⟨18, _⟩ => ⟨S5000x1, .f32⟩
  | .local _ .vmem, ⟨19, _⟩ => ⟨S5000x1, .f32⟩
  | .local _ .vmem, ⟨20, _⟩ => ⟨S256x64, .bf16⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  shapeCasts_S100000_S100000x1 : S100000.ShapeCasts S100000x1
  bcast_S_S100000x128 : S_.BroadcastsInDim S100000x128 (![] : Fin 0 → Fin S100000x128.rank)
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S400000x1_S400000_n_0_0_1_wf : ScatterDims.WF S100000 S400000x1 S400000 [] [0] [0] 1
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S2000x128_S128x256_S2000x256_1_0_0_1_n_n_wf : DotDims.WF S2000x128 S128x256 S2000x256 [1] [0] [0] [1] [] []
  dot_S2000x256_S256x64_S2000x64_1_0_0_1_n_n_wf : DotDims.WF S2000x256 S256x64 S2000x64 [1] [0] [0] [1] [] []
  gather_S100000x64_S400000x1_S400000x64_1_0_n_n_0_1_164_wf : GatherDims.WF S100000x64 S400000x1 S400000x64 [1] [0] [] [0] [] 1 ![1, 64]
  scatter_S100000x64_S400000x1_S400000x64_1_0_0_1_wf : ScatterDims.WF S100000x64 S400000x1 S400000x64 [1] [0] [0] 1
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S256x64.size a
  hwx0_6 : ∀ i : grid0.Coords, EltTy.bits .bf16 = 32 ∨ (Rect.block (s := S256x64) S256x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S100000x256.size a
  hwx0_7 : ∀ i : grid0.Coords, EltTy.bits .bf16 = 32 ∨ (Rect.block (s := S100000x256) S2000x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S100000x64.size a
  hwx0_8 : ∀ i : grid0.Coords, EltTy.bits .f32 = 32 ∨ (Rect.block (s := S100000x64) S2000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S100000x256.size a
  hwx1_1 : ∀ i : grid1.Coords, EltTy.bits .bf16 = 32 ∨ (Rect.block (s := S100000x256) S5000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def scatter_S100000x64_S400000x1_S400000x64_1_0_0_1 : ScatterDims S100000x64 S400000x1 S400000x64 where
  updateWindowDims := [1]
  insertedWindowDims := [0]
  scatterDimsToOperandDims := [0]
  indexVectorDim := 1
  wf := scatter_S100000x64_S400000x1_S400000x64_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S256x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v27_1) S2000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27_0) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x400000 : Shape := ⟨2, ![2, 400000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S400000x256 : Shape := ⟨2, ![400000, 256]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x400000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x64, .f32⟩
  | .hbm, ⟨6, _⟩ => ⟨S64, .f32⟩
  | .hbm, ⟨7, _⟩ => ⟨S256x64, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S_, .i32⟩
  | .hbm, ⟨13, _⟩ => ⟨S400000, .i32⟩
  | .hbm, ⟨14, _⟩ => ⟨S400000, .i1⟩
  | .hbm, ⟨15, _⟩ => ⟨S_, .i32⟩
  | .hbm, ⟨16, _⟩ => ⟨S400000, .i32⟩
  | .hbm, ⟨17, _⟩ => ⟨S400000, .i32⟩
  | .hbm, ⟨18, _⟩ => ⟨S400000, .i32⟩
  | .hbm, ⟨19, _⟩ => ⟨S400000x1, .i32⟩
  | .hbm, ⟨20, _⟩ => ⟨S400000x128, .f32⟩
  | .hbm, ⟨21, _⟩ => ⟨S_, .f32⟩
  | .hbm, ⟨22, _⟩ => ⟨S100000x128, .f32⟩
  | .hbm, ⟨23, _⟩ => ⟨S400000x1, .i32⟩
  | .hbm, ⟨24, _⟩ => ⟨S100000x128, .f32⟩
  | .hbm, ⟨25, _⟩ => ⟨S_, .f32⟩
  | .hbm, ⟨26, _⟩ => ⟨S400000, .f32⟩
  | .hbm, ⟨27, _⟩ => ⟨S_, .f32⟩
  | .hbm, ⟨28, _⟩ => ⟨S100000, .f32⟩
  | .hbm, ⟨29, _⟩ => ⟨S400000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x256, .f32⟩
  | .hbm, ⟨38, _⟩ => ⟨S1x256, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S100000x256, .f32⟩
  | .hbm, ⟨45, _⟩ => ⟨S100000x256, .f32⟩
  | .hbm, ⟨46, _⟩ => ⟨S_, .i32⟩
  | .hbm, ⟨47, _⟩ => ⟨S400000, .i32⟩
  | .hbm, ⟨48, _⟩ => ⟨S400000, .i1⟩
  | .hbm, ⟨49, _⟩ => ⟨S_, .i32⟩
  | .hbm, ⟨50, _⟩ => ⟨S400000, .i32⟩
  | .hbm, ⟨51, _⟩ => ⟨S400000, .i32⟩
  | .hbm, ⟨52, _⟩ => ⟨S400000, .i32⟩
  | .hbm, ⟨53, _⟩ => ⟨S400000x1, .i32⟩
  | .hbm, ⟨54, _⟩ => ⟨S400000x256, .f32⟩
  | .hbm, ⟨55, _⟩ => ⟨S_, .f32⟩
  | .hbm, ⟨56, _⟩ => ⟨S100000x256, .f32⟩
  | .hbm, ⟨57, _⟩ => ⟨S400000x1, .i32⟩
  | .hbm, ⟨58, _⟩ => ⟨S100000x256, .f32⟩
  | .hbm, ⟨59, _⟩ => ⟨S_, .f32⟩
  | .hbm, ⟨60, _⟩ => ⟨S400000, .f32⟩
  | .hbm, ⟨61, _⟩ => ⟨S_, .f32⟩
  | .hbm, ⟨62, _⟩ => ⟨S100000, .f32⟩
  | .hbm, ⟨63, _⟩ => ⟨S400000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x256, .f32⟩
  | .hbm, ⟨70, _⟩ => ⟨S100000x256, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S100000x128_S128x256_S100000x256_1_0_0_1_n_n_wf : DotDims.WF S100000x128 S128x256 S100000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  dot_S100000x256_S256x64_S100000x64_1_0_0_1_n_n_wf : DotDims.WF S100000x256 S256x64 S100000x64 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.RefValue.lean ====
/-
  The reference program's result, read at an index.

  The reference is a two-layer graph convolution with mean aggregation over N = 100000 nodes and E = 400000 edges.
  With s, d : E → node the edge list's two columns (a negative source wrapped by + N), x the node features:
    M1 (n, k)  = the sum over the edges e with d e = n of x (s e, k)                 (a scatter-add of a gather)
    Dm n       = max (the number of edges e with d e = n) 1
    hid (n, c) = max (((∑ k, M1 (n, k) / Dm n * W1l (k, c)) + b1 c) + ∑ k, x (n, k) * W1r (k, c)) 0
    A2 (n, k)  = the sum over the edges e with d e = n of hid (s e, k)
    out (n, j) = ((∑ k, A2 (n, k) / Dm n * W2l (k, j)) + b2 j) + ∑ k, hid (n, k) * W2r (k, j)
  over the extended reals. The two gathers and four scatter-adds are kept as named arrays (their elements depend on
  the values of the edge list); everything between them is read index by index.
-/
import proofs.«113687_j1168231104600_2_alg».proof.Defs
import proofs.«113687_j1168231104600_2_alg».proof.Proof.Gen.ReferenceIdeal.Read
import proofs.«113687_j1168231104600_2_alg».proof.Proof.Gen.Pre_finite_inputs
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The named arrays -/

/-- The edges' source column, as the [E, 1] array the gathers read (a negative entry wrapped by + N). -/
def sI (ei : (⟨S2x400000, .i32⟩ : BufTy).Contents (Elt Ideal)) : (⟨S400000x1, .i32⟩ : BufTy).Contents (Elt Ideal) :=
  Read.val_main_v9 (F := Ideal) ei
/-- The edges' destination column, as the [E, 1] array the scatter-adds read. -/
def dI (ei : (⟨S2x400000, .i32⟩ : BufTy).Contents (Elt Ideal)) : (⟨S400000x1, .i32⟩ : BufTy).Contents (Elt Ideal) :=
  Read.val_main_v12 (F := Ideal) ei
/-- The all-zero [N, 128] array the first aggregation accumulates into. -/
def zeros128 : (⟨S100000x128, .f32⟩ : BufTy).Contents (Elt Ideal) :=
  Read.val_main_v11 (F := Ideal)
/-- The all-zero [N, 256] array the second aggregation accumulates into. -/
def zeros256 : (⟨S100000x256, .f32⟩ : BufTy).Contents (Elt Ideal) :=
  Read.val_main_v37 (F := Ideal)
/-- The all-zero [N] array the in-degree count accumulates into. -/
def zerosN : (⟨S100000, .f32⟩ : BufTy).Contents (Elt Ideal) :=
  Read.val_main_v15 (F := Ideal)
/-- The all-one [E] array whose scatter-add counts the edges into each node. -/
def onesE : (⟨S400000, .f32⟩ : BufTy).Contents (Elt Ideal) :=
  Read.val_main_v14 (F := Ideal)
/-- The all-one [N] array the in-degree is clamped below by. -/
def onesN : (⟨S100000, .f32⟩ : BufTy).Contents (Elt Ideal) :=
  Read.val_main_v18 (F := Ideal)
/-- The sum of the neighbours' features: x gathered at the sources, scatter-added at the destinations. -/
def M1 (x : (⟨S100000x128, .f32⟩ : BufTy).Contents (Elt Ideal)) (ei : (⟨S2x400000, .i32⟩ : BufTy).Contents (Elt Ideal)) : (⟨S100000x128, .f32⟩ : BufTy).Contents (Elt Ideal) :=
  Read.val_main_v13 (F := Ideal) x ei
/-- The in-degree: the number of edges into each node. -/
def deg (ei : (⟨S2x400000, .i32⟩ : BufTy).Contents (Elt Ideal)) : (⟨S100000, .f32⟩ : BufTy).Contents (Elt Ideal) :=
  Read.val_main_v17 (F := Ideal) ei
/-- The mean's divisor: the in-degree clamped below by one. -/
def Dm (ei : (⟨S2x400000, .i32⟩ : BufTy).Contents (Elt Ideal)) : (⟨S100000, .f32⟩ : BufTy).Contents (Elt Ideal) :=
  Read.val_main_v19 (F := Ideal) ei
/-- The hidden layer. -/
def hid (x : (⟨S100000x128, .f32⟩ : BufTy).Contents (Elt Ideal)) (ei : (⟨S2x400000, .i32⟩ : BufTy).Contents (Elt Ideal)) (W1l : (⟨S128x256, .f32⟩ : BufTy).Contents (Elt Ideal)) (b1 : (⟨S256, .f32⟩ : BufTy).Contents (Elt Ideal)) (W1r : (⟨S128x256, .f32⟩ : BufTy).Contents (Elt Ideal)) : (⟨S100000x256, .f32⟩ : BufTy).Contents (Elt Ideal) :=
  Read.val_main_v29 (F := Ideal) x ei W1l b1 W1r
/-- The sum of the neighbours' hidden rows. -/
def A2 (x : (⟨S100000x128, .f32⟩ : BufTy).Contents (Elt Ideal)) (ei : (⟨S2x400000, .i32⟩ : BufTy).Contents (Elt Ideal)) (W1l : (⟨S128x256, .f32⟩ : BufTy).Contents (Elt Ideal)) (b1 : (⟨S256, .f32⟩ : BufTy).Contents (Elt Ideal)) (W1r : (⟨S128x256, .f32⟩ : BufTy).Contents (Elt Ideal)) : (⟨S100000x256, .f32⟩ : BufTy).Contents (Elt Ideal) :=
  Read.val_main_v39 (F := Ideal) x ei W1l b1 W1r
/-- The result. -/
def out (x : (⟨S100000x128, .f32⟩ : BufTy).Contents (Elt Ideal)) (ei : (⟨S2x400000, .i32⟩ : BufTy).Contents (Elt Ideal)) (W1l : (⟨S128x256, .f32⟩ : BufTy).Contents (Elt Ideal)) (b1 : (⟨S256, .f32⟩ : BufTy).Contents (Elt Ideal)) (W1r : (⟨S128x256, .f32⟩ : BufTy).Contents (Elt Ideal)) (W2l : (⟨S256x64, .f32⟩ : BufTy).Contents (Elt Ideal)) (b2 : (⟨S64, .f32⟩ : BufTy).Contents (Elt Ideal)) (W2r : (⟨S256x64, .f32⟩ : BufTy).Contents (Elt Ideal)) : (⟨S100000x64, .f32⟩ : BufTy).Contents (Elt Ideal) :=
  Read.val_main_v54 (F := Ideal) x ei W1l b1 W1r W2l b2 W2r

theorem out_def (x : (⟨S100000x128, .f32⟩ : BufTy).Contents (Elt Ideal)) (ei : (⟨S2x400000, .i32⟩ : BufTy).Contents (Elt Ideal)) (W1l : (⟨S128x256, .f32⟩ : BufTy).Contents (Elt Ideal)) (b1 : (⟨S256, .f32⟩ : BufTy).Contents (Elt Ideal)) (W1r : (⟨S128x256, .f32⟩ : BufTy).Contents (Elt Ideal)) (W2l : (⟨S256x64, .f32⟩ : BufTy).Contents (Elt Ideal)) (b2 : (⟨S64, .f32⟩ : BufTy).Contents (Elt Ideal)) (W2r : (⟨S256x64, .f32⟩ : BufTy).Contents (Elt Ideal)) :
    out x ei W1l b1 W1r W2l b2 W2r = Read.val_main_v54 (F := Ideal) x ei W1l b1 W1r W2l b2 W2r := rfl

/-! ## The constant arrays at an index -/

theorem zeros128_eq : zeros128 = broadcastInDim S100000x128 ![] bcast_S_S100000x128 (constant (F := Ideal) S_ .f32 0x00000000#32) := rfl
theorem zeros256_eq : zeros256 = broadcastInDim S100000x256 ![] bcast_S_S100000x256 (constant (F := Ideal) S_ .f32 0x00000000#32) := rfl
theorem zerosN_eq : zerosN = broadcastInDim S100000 ![] bcast_S_S100000 (constant (F := Ideal) S_ .f32 0x00000000#32) := rfl
theorem onesE_eq : onesE = broadcastInDim S400000 ![] bcast_S_S400000 (constant (F := Ideal) S_ .f32 0x3F800000#32) := rfl
theorem onesN_eq : onesN = broadcastInDim S100000 ![] bcast_S_S100000 (constant (F := Ideal) S_ .f32 0x3F800000#32) := rfl

theorem zeros128_apply (i : S100000x128.Idx) : zeros128 i = 0 := by
  unfold zeros128
  rw [Read.val_main_v11_apply, Read.val_main_cst_apply, Ideal.ofBits_def, Ideal.ofBits_zero_f32]
theorem zeros256_apply (i : S100000x256.Idx) : zeros256 i = 0 := by
  unfold zeros256
  rw [Read.val_main_v37_apply, Read.val_main_cst_6_apply, Ideal.ofBits_def, Ideal.ofBits_zero_f32]
theorem zerosN_apply (i : S100000.Idx) : zerosN i = 0 := by
  unfold zerosN
  rw [Read.val_main_v15_apply, Read.val_main_cst_2_apply, Ideal.ofBits_def, Ideal.ofBits_zero_f32]
theorem onesE_apply (i : S400000.Idx) : onesE i = Ideal.ofBits .f32 0x3F800000#32 := by
  unfold onesE
  rw [Read.val_main_v14_apply, Read.val_main_cst_1_apply, Ideal.ofBits_def]
theorem onesN_apply (i : S100000.Idx) : onesN i = Ideal.ofBits .f32 0x3F800000#32 := by
  unfold onesN
  rw [Read.val_main_v18_apply, Read.val_main_cst_3_apply, Ideal.ofBits_def]

/-! ## The gathers and scatter-adds, named -/

/-- The second layer's source and destination columns and divisor are the first layer's. -/
theorem sI_eq' (ei : (⟨S2x400000, .i32⟩ : BufTy).Contents (Elt Ideal)) : Read.val_main_v35 (F := Ideal) ei = sI ei := rfl
theorem dI_eq16 (ei : (⟨S2x400000, .i32⟩ : BufTy).Contents (Elt Ideal)) : Read.val_main_v16 (F := Ideal) ei = dI ei := rfl
theorem dI_eq38 (ei : (⟨S2x400000, .i32⟩ : BufTy).Contents (Elt Ideal)) : Read.val_main_v38 (F := Ideal) ei = dI ei := rfl
theorem dI_eq42 (ei : (⟨S2x400000, .i32⟩ : BufTy).Contents (Elt Ideal)) : Read.val_main_v42 (F := Ideal) ei = dI ei := rfl
theorem Dm_eq45 (ei : (⟨S2x400000, .i32⟩ : BufTy).Contents (Elt Ideal)) : Read.val_main_v45 (F := Ideal) ei = Dm ei := rfl

theorem M1_eq (x : (⟨S100000x128, .f32⟩ : BufTy).Contents (Elt Ideal)) (ei : (⟨S2x400000, .i32⟩ : BufTy).Contents (Elt Ideal)) :
    M1 x ei = Host.scatterAdd (F := Ideal) (φ := .f32) scatter_S100000x128_S400000x1_S400000x128_1_0_0_1 zeros128 (dI ei)
      (Host.gather gather_S100000x128_S400000x1_S400000x128_1_0_n_n_0_1_1128 x (sI ei)) := rfl

theorem A2_eq (x : (⟨S100000x128, .f32⟩ : BufTy).Contents (Elt Ideal)) (ei : (⟨S2x400000, .i32⟩ : BufTy).Contents (Elt Ideal)) (W1l : (⟨S128x256, .f32⟩ : BufTy).Contents (Elt Ideal)) (b1 : (⟨S256, .f32⟩ : BufTy).Contents (Elt Ideal)) (W1r : (⟨S128x256, .f32⟩ : BufTy).Contents (Elt Ideal)) :
    A2 x ei W1l b1 W1r = Host.scatterAdd (F := Ideal) (φ := .f32) scatter_S100000x256_S400000x1_S400000x256_1_0_0_1 zeros256 (dI ei)
      (Host.gather gather_S100000x256_S400000x1_S400000x256_1_0_n_n_0_1_1256 (hid x ei W1l b1 W1r) (sI ei)) := rfl

theorem deg_eq (ei : (⟨S2x400000, .i32⟩ : BufTy).Contents (Elt Ideal)) :
    deg ei = Host.scatterAdd (F := Ideal) (φ := .f32) scatter_S100000_S400000x1_S400000_n_0_0_1 zerosN (dI ei) onesE := rfl

theorem Dm_eq (ei : (⟨S2x400000, .i32⟩ : BufTy).Contents (Elt Ideal)) : Dm ei = maximumf (F := Ideal) (φ := .f32) (deg ei) onesN := rfl

theorem Dm_apply (ei : (⟨S2x400000, .i32⟩ : BufTy).Contents (Elt Ideal)) (n : Fin 100000) :
    Dm ei (ix1 n) = max (deg ei (ix1 n)) (Ideal.ofBits .f32 0x3F800000#32) := by
  rw [Dm_eq, maximumf_apply, onesN_apply]

/-- The divisor is at least one. -/
theorem one_le_Dm (ei : (⟨S2x400000, .i32⟩ : BufTy).Contents (Elt Ideal)) (n : Fin 100000) : Ideal.ofBits .f32 0x3F800000#32 ≤ Dm ei (ix1 n) := by
  rw [Dm_apply]; exact le_max_right _ _

/-- The one word denotes the real number one. -/
theorem ofBits_one_f32 : Ideal.ofBits .f32 0x3F800000#32 = 1 := by
  simp [Ideal.ofBits, Ideal.ieee, -EReal.coe_mul]; norm_num

/-- The divisor is positive. -/
theorem Dm_pos (ei : (⟨S2x400000, .i32⟩ : BufTy).Contents (Elt Ideal)) (n : Fin 100000) : 0 < Dm ei (ix1 n) :=
  lt_of_lt_of_le (by rw [ofBits_one_f32]; exact zero_lt_one) (one_le_Dm ei n)

/-! ## Read's index functions at coordinates -/

theorem lidx23 (n : Fin 100000) (c : Fin 256) (k : Fin 128) : Read.lidx_main_v23 (ix2 n c) k = ix2 n k :=
  funext fun a => Fin.ext (by match a with | ⟨0, _⟩ => rfl | ⟨1, _⟩ => rfl)
theorem ridx23 (n : Fin 100000) (c : Fin 256) (k : Fin 128) : Read.ridx_main_v23 (ix2 n c) k = ix2 k c :=
  funext fun a => Fin.ext (by match a with | ⟨0, _⟩ => rfl | ⟨1, _⟩ => rfl)
theorem lidx27 (n : Fin 100000) (c : Fin 256) (k : Fin 128) : Read.lidx_main_v27 (ix2 n c) k = ix2 n k :=
  funext fun a => Fin.ext (by match a with | ⟨0, _⟩ => rfl | ⟨1, _⟩ => rfl)
theorem ridx27 (n : Fin 100000) (c : Fin 256) (k : Fin 128) : Read.ridx_main_v27 (ix2 n c) k = ix2 k c :=
  funext fun a => Fin.ext (by match a with | ⟨0, _⟩ => rfl | ⟨1, _⟩ => rfl)
theorem idx2021 (n : Fin 100000) (k : Fin 128) : Read.idx_main_v20 (Read.idx_main_v21 (ix2 n k)) = ix1 n :=
  funext fun a => Fin.ext (by match a with | ⟨0, _⟩ => rfl)
theorem idx2425 (n : Fin 100000) (c : Fin 256) : Read.idx_main_v24 (Read.idx_main_v25 (ix2 n c)) = ix1 c :=
  funext fun a => Fin.ext (by match a with | ⟨0, _⟩ => rfl)
theorem lidx49 (n : Fin 100000) (j : Fin 64) (k : Fin 256) : Read.lidx_main_v49 (ix2 n j) k = ix2 n k :=
  funext fun a => Fin.ext (by match a with | ⟨0, _⟩ => rfl | ⟨1, _⟩ => rfl)
theorem ridx49 (n : Fin 100000) (j : Fin 64) (k : Fin 256) : Read.ridx_main_v49 (ix2 n j) k = ix2 k j :=
  funext fun a => Fin.ext (by match a with | ⟨0, _⟩ => rfl | ⟨1, _⟩ => rfl)
theorem lidx53 (n : Fin 100000) (j : Fin 64) (k : Fin 256) : Read.lidx_main_v53 (ix2 n j) k = ix2 n k :=
  funext fun a => Fin.ext (by match a with | ⟨0, _⟩ => rfl | ⟨1, _⟩ => rfl)
theorem ridx53 (n : Fin 100000) (j : Fin 64) (k : Fin 256) : Read.ridx_main_v53 (ix2 n j) k = ix2 k j :=
  funext fun a => Fin.ext (by match a with | ⟨0, _⟩ => rfl | ⟨1, _⟩ => rfl)
theorem idx4647 (n : Fin 100000) (k : Fin 256) : Read.idx_main_v46 (Read.idx_main_v47 (ix2 n k)) = ix1 n :=
  funext fun a => Fin.ext (by match a with | ⟨0, _⟩ => rfl)
theorem idx5051 (n : Fin 100000) (j : Fin 64) : Read.idx_main_v50 (Read.idx_main_v51 (ix2 n j)) = ix1 j :=
  funext fun a => Fin.ext (by match a with | ⟨0, _⟩ => rfl)

/-! ## The two mean aggregations at an index -/

/-- The first layer's mean: the neighbours' sum over the clamped in-degree. -/
theorem mean1_apply (x : (⟨S100000x128, .f32⟩ : BufTy).Contents (Elt Ideal)) (ei : (⟨S2x400000, .i32⟩ : BufTy).Contents (Elt Ideal)) (n : Fin 100000) (k : Fin 128) :
    Read.val_main_v22 (F := Ideal) x ei (ix2 n k) = Ideal.div (M1 x ei (ix2 n k)) (Dm ei (ix1 n)) := by
  rw [Read.val_main_v22_apply, Read.val_main_v21_apply, Read.val_main_v20_apply, idx2021, Ideal.hostDivf_def]
  rfl

/-- The second layer's mean. -/
theorem mean2_apply (x : (⟨S100000x128, .f32⟩ : BufTy).Contents (Elt Ideal)) (ei : (⟨S2x400000, .i32⟩ : BufTy).Contents (Elt Ideal)) (W1l : (⟨S128x256, .f32⟩ : BufTy).Contents (Elt Ideal)) (b1 : (⟨S256, .f32⟩ : BufTy).Contents (Elt Ideal)) (W1r : (⟨S128x256, .f32⟩ : BufTy).Contents (Elt Ideal)) (n : Fin 100000) (k : Fin 256) :
    Read.val_main_v48 (F := Ideal) x ei W1l b1 W1r (ix2 n k)
      = Ideal.div (A2 x ei W1l b1 W1r (ix2 n k)) (Dm ei (ix1 n)) := by
  rw [Read.val_main_v48_apply, Read.val_main_v47_apply, Read.val_main_v46_apply, idx4647, Ideal.hostDivf_def]
  rfl

/-! ## The two layers at an index -/

theorem hid_apply (x : (⟨S100000x128, .f32⟩ : BufTy).Contents (Elt Ideal)) (ei : (⟨S2x400000, .i32⟩ : BufTy).Contents (Elt Ideal)) (W1l : (⟨S128x256, .f32⟩ : BufTy).Contents (Elt Ideal)) (b1 : (⟨S256, .f32⟩ : BufTy).Contents (Elt Ideal)) (W1r : (⟨S128x256, .f32⟩ : BufTy).Contents (Elt Ideal)) (n : Fin 100000) (c : Fin 256) :
    hid x ei W1l b1 W1r (ix2 n c)
      = max (((∑ k : Fin 128, Ideal.div (M1 x ei (ix2 n k)) (Dm ei (ix1 n)) * W1l (ix2 k c)) + b1 (ix1 c))
          + ∑ k : Fin 128, x (ix2 n k) * W1r (ix2 k c)) 0 := by
  unfold hid
  rw [Read.val_main_v29_apply, Read.val_main_v28_apply, Read.val_main_v26_apply, Read.val_main_v23_apply,
    Read.val_main_v27_apply, Read.val_main_v25_apply, Read.val_main_v24_apply, Read.val_main_call0_v0_apply,
    Read.val_main_call0_cst_apply, idx2425]
  simp only [lidx23, ridx23, lidx27, ridx27, mean1_apply, Ideal.maximumf_def, Ideal.addf_def, Ideal.ofBits_def,
    Ideal.ofBits_zero_f32]

theorem out_apply (x : (⟨S100000x128, .f32⟩ : BufTy).Contents (Elt Ideal)) (ei : (⟨S2x400000, .i32⟩ : BufTy).Contents (Elt Ideal)) (W1l : (⟨S128x256, .f32⟩ : BufTy).Contents (Elt Ideal)) (b1 : (⟨S256, .f32⟩ : BufTy).Contents (Elt Ideal)) (W1r : (⟨S128x256, .f32⟩ : BufTy).Contents (Elt Ideal)) (W2l : (⟨S256x64, .f32⟩ : BufTy).Contents (Elt Ideal)) (b2 : (⟨S64, .f32⟩ : BufTy).Contents (Elt Ideal)) (W2r : (⟨S256x64, .f32⟩ : BufTy).Contents (Elt Ideal)) (n : Fin 100000) (j : Fin 64) :
    Read.val_main_v54 (F := Ideal) x ei W1l b1 W1r W2l b2 W2r (ix2 n j)
      = ((∑ k : Fin 256, Ideal.div (A2 x ei W1l b1 W1r (ix2 n k)) (Dm ei (ix1 n)) * W2l (ix2 k j)) + b2 (ix1 j))
          + ∑ k : Fin 256, hid x ei W1l b1 W1r (ix2 n k) * W2r (ix2 k j) := by
  rw [Read.val_main_v54_apply, Read.val_main_v52_apply, Read.val_main_v49_apply, Read.val_main_v53_apply,
    Read.val_main_v51_apply, Read.val_main_v50_apply, idx5051]
  simp only [lidx49, ridx49, lidx53, ridx53, mean2_apply, Ideal.addf_def]
  rfl

/-! ## The run, with its result named -/

/-- Every weakly fair execution of the reference terminates with its result array at `out` of the argument arrays
    as the run found them, the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v54)
        = Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (Read.val_main_v54_eq (F := Ideal) m c), (h c).2⟩)
    (Cert.ReferenceIdeal.Value.run (F := Ideal) m ρ)

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.KernelRun.lean ====
/-
  The idealized kernel program's run with its final memory named.

  @main is four segments: a stretch of host operations (the degree count, its clamped reciprocal as a column, the
  layer-1 neighbour sums, the weight casts), the first pallas_call (fifty row blocks of 2000 nodes), a second stretch
  (the gather of the projected rows and their neighbour sums), and the second pallas_call (twenty row blocks of 5000
  nodes). The launch below is the one the generated frame makes; what is kept of it here is more: every weakly fair
  execution terminates with EVERY unscoped buffer at the contents the fold through the four segments gives it
  (`Gen.W4`), so the result buffer can be read: it is the second region's output array after its twenty write-backs.
-/
import proofs.«113687_j1168231104600_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents. -/
theorem run_mem : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result read: the result buffer ends at the second region's output array after all its
    write-backs, and the eight arguments end as launched. -/
theorem run_value : θ_run defs (onTc (τ := τ) (main (F := F))) ⟨m, fun _ => 0, ρ⟩ (fun r => ∀ c : Dev nD,
      r.2.mem ((c.tc : Thread nD τ).loc main_v40) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v40 (by decide))).trans (W4_arr m ρ c 5),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_mem m ρ)

end Cert.KernelIdeal.KRun

end
-- ==== Proof.KBody.lean ====
/-
  The two kernel bodies' arithmetic read at one entry, at the ideal values (floats are extended reals, every format
  change the identity).

  First body (a block of 2000 nodes): with `s` the block of layer-1 neighbour sums, `x` the block of features, `q` the
  column of reciprocal clamped degrees, `A`, `B` the two [128, 256] weights, `b` the bias row and `C` the [256, 64]
  weight, the hidden block is
      hid r c = max ((∑ k, (s r k * q r) * A k c + ∑ k, x r k * B k c) + b c) 0
  and the projected block is  proj r j = ∑ k, hid r k * C k j.
  Second body (a block of 5000 nodes): with `p` the block of neighbour sums of projected rows, `h` the hidden block,
  `q` as before, `b` the bias row and `C` the [256, 64] weight,
      out r j = (p r j * q r + b j) + ∑ k, h r k * C k j.
  Each matrix product enters a zero accumulator, so it is the plain sum over the contracted axis.
-/
import proofs.«113687_j1168231104600_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KBody

open Cert.KernelIdeal Cert.KernelIdeal.Gen
open Idealize.ShloMosaic Idealize.ShloMosaic.ValueIdx

/-- An [a, 1] column broadcast to [a, b] reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

theorem mm_2000_128_256_lhs0 (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl
theorem mm_2000_128_256_rhs1 (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl
theorem mm_2000_128_256_lhs1 (i : S2000x256.Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem mm_2000_128_256_rhs0 (i : S2000x256.Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q

/-- Row `a`, column `b` of a [2000, 128] by [128, 256] product into a zero accumulator: the sum over the 128 contracted
    positions of the left operand's row entry times the right operand's column entry. -/
theorem mm_2000_128_256 {φ₁ φ₂ : FTy} (l : FVec Ideal S2000x128 φ₁) (r : FVec Ideal S128x256 φ₂) (a : Fin 2000) (b : Fin 256) :
    FloatOps.matmul dot_S2000x128_S128x256_S2000x256_1_0_0_1_n_n none l r (constant S2000x256 .f32 0x00000000#32) (ix2 a b)
      = ∑ k : Fin 128, l (ix2 a k) * r (ix2 k b) := by
  refine (Ideal.matmul_constant_zero_apply dot_S2000x128_S128x256_S2000x256_1_0_0_1_n_n none l r (ix2 a b)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 a b) ((ValueIdx.contrEquiv1 dot_S2000x128_S128x256_S2000x256_1_0_0_1_n_n 128 rfl rfl).symm k) = ix2 a k :=
    funext fun x => Fin.ext (by
      match x with
      | ⟨0, _⟩ => exact mm_2000_128_256_lhs0 _ _
      | ⟨1, _⟩ => exact (mm_2000_128_256_lhs1 _ _).trans hk)
  have er : dot_S2000x128_S128x256_S2000x256_1_0_0_1_n_n.rhsIdx (ix2 a b) ((ValueIdx.contrEquiv1 dot_S2000x128_S128x256_S2000x256_1_0_0_1_n_n 128 rfl rfl).symm k) = ix2 k b :=
    funext fun x => Fin.ext (by
      match x with
      | ⟨0, _⟩ => exact (mm_2000_128_256_rhs0 _ _).trans hk
      | ⟨1, _⟩ => exact mm_2000_128_256_rhs1 _ _)
  rw [el, er]

theorem mm_2000_256_64_lhs0 (i : S2000x64.Idx) (q : dot_S2000x256_S256x64_S2000x64_1_0_0_1_n_n.contr.Idx) : (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide),
    dif_pos (show (0 : Fin S2000x256.rank) ∈ dot_S2000x256_S256x64_S2000x64_1_0_0_1_n_n.lhsNonContracting by decide)]
  rfl
theorem mm_2000_256_64_rhs1 (i : S2000x64.Idx) (q : dot_S2000x256_S256x64_S2000x64_1_0_0_1_n_n.contr.Idx) : (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide),
    dif_pos (show (1 : Fin S256x64.rank) ∈ dot_S2000x256_S256x64_S2000x64_1_0_0_1_n_n.rhsNonContracting by decide)]
  rfl
theorem mm_2000_256_64_lhs1 (i : S2000x64.Idx) (q : dot_S2000x256_S256x64_S2000x64_1_0_0_1_n_n.contr.Idx) : (dot_S2000x256_S256x64_S2000x64_1_0_0_1_n_n.lhsIdx i q 1).val = (q ⟨0, by decide⟩).val :=
  dot_S2000x256_S256x64_S2000x64_1_0_0_1_n_n.lhsIdx_val_of_single rfl i q
theorem mm_2000_256_64_rhs0 (i : S2000x64.Idx) (q : dot_S2000x256_S256x64_S2000x64_1_0_0_1_n_n.contr.Idx) : (dot_S2000x256_S256x64_S2000x64_1_0_0_1_n_n.rhsIdx i q 0).val = (q ⟨0, by decide⟩).val :=
  dot_S2000x256_S256x64_S2000x64_1_0_0_1_n_n.rhsIdx_val_of_single rfl i q

/-- Row `a`, column `b` of a [2000, 256] by [256, 64] product into a zero accumulator: the sum over the 256 contracted
    positions of the left operand's row entry times the right operand's column entry. -/
theorem mm_2000_256_64 {φ₁ φ₂ : FTy} (l : FVec Ideal S2000x256 φ₁) (r : FVec Ideal S256x64 φ₂) (a : Fin 2000) (b : Fin 64) :
    FloatOps.matmul dot_S2000x256_S256x64_S2000x64_1_0_0_1_n_n none l r (constant S2000x64 .f32 0x00000000#32) (ix2 a b)
      = ∑ k : Fin 256, l (ix2 a k) * r (ix2 k b) := by
  refine (Ideal.matmul_constant_zero_apply dot_S2000x256_S256x64_S2000x64_1_0_0_1_n_n none l r (ix2 a b)).trans ?_
  rw [← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 a b) ((ValueIdx.contrEquiv1 dot_S2000x256_S256x64_S2000x64_1_0_0_1_n_n 256 rfl rfl).symm k) = ix2 a k :=
    funext fun x => Fin.ext (by
      match x with
      | ⟨0, _⟩ => exact mm_2000_256_64_lhs0 _ _
      | ⟨1, _⟩ => exact (mm_2000_256_64_lhs1 _ _).trans hk)
  have er : dot_S2000x256_S256x64_S2000x64_1_0_0_1_n_n.rhsIdx (ix2 a b) ((ValueIdx.contrEquiv1 dot_S2000x256_S256x64_S2000x64_1_0_0_1_n_n 256 rfl rfl).symm k) = ix2 k b :=
    funext fun x => Fin.ext (by
      match x with
      | ⟨0, _⟩ => exact (mm_2000_256_64_rhs0 _ _).trans hk
      | ⟨1, _⟩ => exact mm_2000_256_64_rhs1 _ _)
  rw [el, er]

theorem mm_5000_256_64_lhs0 (i : S5000x64.Idx) (q : dot_S5000x256_S256x64_S5000x64_1_0_0_1_n_n.contr.Idx) : (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide),
    dif_pos (show (0 : Fin S5000x256.rank) ∈ dot_S5000x256_S256x64_S5000x64_1_0_0_1_n_n.lhsNonContracting by decide)]
  rfl
theorem mm_5000_256_64_rhs1 (i : S5000x64.Idx) (q : dot_S5000x256_S256x64_S5000x64_1_0_0_1_n_n.contr.Idx) : (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide),
    dif_pos (show (1 : Fin S256x64.rank) ∈ dot_S5000x256_S256x64_S5000x64_1_0_0_1_n_n.rhsNonContracting by decide)]
  rfl
theorem mm_5000_256_64_lhs1 (i : S5000x64.Idx) (q : dot_S5000x256_S256x64_S5000x64_1_0_0_1_n_n.contr.Idx) : (dot_S5000x256_S256x64_S5000x64_1_0_0_1_n_n.lhsIdx i q 1).val = (q ⟨0, by decide⟩).val :=
  dot_S5000x256_S256x64_S5000x64_1_0_0_1_n_n.lhsIdx_val_of_single rfl i q
theorem mm_5000_256_64_rhs0 (i : S5000x64.Idx) (q : dot_S5000x256_S256x64_S5000x64_1_0_0_1_n_n.contr.Idx) : (dot_S5000x256_S256x64_S5000x64_1_0_0_1_n_n.rhsIdx i q 0).val = (q ⟨0, by decide⟩).val :=
  dot_S5000x256_S256x64_S5000x64_1_0_0_1_n_n.rhsIdx_val_of_single rfl i q

/-- Row `a`, column `b` of a [5000, 256] by [256, 64] product into a zero accumulator: the sum over the 256 contracted
    positions of the left operand's row entry times the right operand's column entry. -/
theorem mm_5000_256_64 {φ₁ φ₂ : FTy} (l : FVec Ideal S5000x256 φ₁) (r : FVec Ideal S256x64 φ₂) (a : Fin 5000) (b : Fin 64) :
    FloatOps.matmul dot_S5000x256_S256x64_S5000x64_1_0_0_1_n_n none l r (constant S5000x64 .f32 0x00000000#32) (ix2 a b)
      = ∑ k : Fin 256, l (ix2 a k) * r (ix2 k b) := by
  refine (Ideal.matmul_constant_zero_apply dot_S5000x256_S256x64_S5000x64_1_0_0_1_n_n none l r (ix2 a b)).trans ?_
  rw [← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : dot_S5000x256_S256x64_S5000x64_1_0_0_1_n_n.lhsIdx (ix2 a b) ((ValueIdx.contrEquiv1 dot_S5000x256_S256x64_S5000x64_1_0_0_1_n_n 256 rfl rfl).symm k) = ix2 a k :=
    funext fun x => Fin.ext (by
      match x with
      | ⟨0, _⟩ => exact mm_5000_256_64_lhs0 _ _
      | ⟨1, _⟩ => exact (mm_5000_256_64_lhs1 _ _).trans hk)
  have er : dot_S5000x256_S256x64_S5000x64_1_0_0_1_n_n.rhsIdx (ix2 a b) ((ValueIdx.contrEquiv1 dot_S5000x256_S256x64_S5000x64_1_0_0_1_n_n 256 rfl rfl).symm k) = ix2 k b :=
    funext fun x => Fin.ext (by
      match x with
      | ⟨0, _⟩ => exact (mm_5000_256_64_rhs0 _ _).trans hk
      | ⟨1, _⟩ => exact mm_5000_256_64_rhs1 _ _)
  rw [el, er]

/-- The hidden block at row `r`, channel `c`. -/
theorem pay_hid (v0 : Vec Ideal S2000x128 .f32) (v2 : Vec Ideal S2000x1 .f32) (v7 : Vec Ideal S2000x128 .f32)
    (v9 : Vec Ideal S128x256 .bf16) (v12 : Vec Ideal S128x256 .bf16) (v16 : Vec Ideal S1x256 .f32)
    (r : Fin 2000) (c : Fin 256) :
    k0_pay1 (F := Ideal) v0 v2 v7 v9 v12 v16 (ix2 r c)
      = max (((∑ k : Fin 128, (v0 (ix2 r k) * v2 (ix2 r (0 : Fin 1))) * v9 (ix2 k c))
              + ∑ k : Fin 128, v7 (ix2 r k) * v12 (ix2 k c)) + v16 (ix2 (0 : Fin 1) c)) 0 := by
  unfold k0_pay1
  refine (truncf_apply (φ := .f32) (ψ := .bf16) _ _ _).trans ?_
  refine (maximumf_apply _ _ _).trans ?_
  refine congrArg₂ max ?_ ?_
  · refine (addf_apply _ _ _).trans ?_
    refine congrArg₂ (· + ·) ?_ ?_
    · refine (addf_apply _ _ _).trans ?_
      refine congrArg₂ (· + ·) ?_ ?_
      · refine (mm_2000_128_256 _ _ r c).trans ?_
        refine Finset.sum_congr rfl fun k _ => ?_
        refine congrArg₂ (· * ·) ?_ ?_
        · refine (truncf_apply (φ := .f32) (ψ := .bf16) _ _ _).trans ?_
          refine (mulf_apply _ _ _).trans ?_
          refine congrArg₂ (· * ·) ?_ ?_
          · exact congrFun (shapeCast_self v0 _) _
          · refine (broadcastTo_a1_ab_apply _ _ r k).trans ?_
            exact congrFun (shapeCast_self v2 _) _
        · exact congrFun (shapeCast_self v9 _) _
      · refine (mm_2000_128_256 _ _ r c).trans ?_
        refine Finset.sum_congr rfl fun k _ => ?_
        refine congrArg₂ (· * ·) ?_ ?_
        · exact truncf_apply (φ := .f32) (ψ := .bf16) _ _ _
        · exact congrFun (shapeCast_self v12 _) _
    · refine (broadcastTo_1b_ab_apply _ _ r c).trans ?_
      exact congrFun (shapeCast_self v16 _) _
  · show Ideal.ofBits .f32 0x00000000#32 = 0
    exact Ideal.ofBits_zero_f32

/-- The projected block at row `r`, channel `j`: the hidden block's row times the weight's column. -/
theorem pay_proj (v0 : Vec Ideal S2000x128 .f32) (v2 : Vec Ideal S2000x1 .f32) (v7 : Vec Ideal S2000x128 .f32)
    (v9 : Vec Ideal S128x256 .bf16) (v12 : Vec Ideal S128x256 .bf16) (v16 : Vec Ideal S1x256 .f32)
    (v24 : Vec Ideal S256x64 .bf16) (r : Fin 2000) (j : Fin 64) :
    k0_pay2 (F := Ideal) v0 v2 v7 v9 v12 v16 v24 (ix2 r j)
      = ∑ k : Fin 256, k0_pay1 (F := Ideal) v0 v2 v7 v9 v12 v16 (ix2 r k) * v24 (ix2 k j) := by
  unfold k0_pay2
  refine (mm_2000_256_64 _ _ r j).trans ?_
  refine Finset.sum_congr rfl fun k _ => ?_
  exact congrArg (_ * ·) (congrFun (shapeCast_self v24 _) _)

/-- The second body's block at row `r`, channel `j`. -/
theorem pay_out (v0 : Vec Ideal S5000x64 .f32) (v2 : Vec Ideal S5000x1 .f32) (v6 : Vec Ideal S5000x256 .bf16)
    (v8 : Vec Ideal S1x64 .f32) (v12 : Vec Ideal S256x64 .bf16) (r : Fin 5000) (j : Fin 64) :
    k1_pay1 (F := Ideal) v0 v2 v6 v8 v12 (ix2 r j)
      = ((v0 (ix2 r j) * v2 (ix2 r (0 : Fin 1))) + v8 (ix2 (0 : Fin 1) j))
          + ∑ k : Fin 256, v6 (ix2 r k) * v12 (ix2 k j) := by
  unfold k1_pay1
  refine (addf_apply _ _ _).trans ?_
  refine congrArg₂ (· + ·) ?_ ?_
  · refine (addf_apply _ _ _).trans ?_
    refine congrArg₂ (· + ·) ?_ ?_
    · refine (mulf_apply _ _ _).trans ?_
      refine congrArg₂ (· * ·) ?_ ?_
      · exact congrFun (shapeCast_self v0 _) _
      · refine (broadcastTo_a1_ab_apply _ _ r j).trans ?_
        exact congrFun (shapeCast_self v2 _) _
    · refine (broadcastTo_1b_ab_apply _ _ r j).trans ?_
      exact congrFun (shapeCast_self v8 _) _
  · refine (mm_5000_256_64 _ _ r j).trans ?_
    refine Finset.sum_congr rfl fun k _ => ?_
    refine congrArg₂ (· * ·) ?_ ?_
    · exact congrFun (shapeCast_self v6 _) _
    · exact congrFun (shapeCast_self v12 _) _

end Cert.KernelIdeal.KBody

end
-- ==== Proof.SageSpec.lean ====
/-
  The whole-array functions the two pallas_calls compute, index by index, on the extended reals.

  For 100000 nodes: from the layer-1 neighbour sums `s`, the features `x`, the column `q` of reciprocal clamped
  in-degrees, the weights `A`, `B` and the bias row `b`,
      hid n c  = max ((∑ k, (s n k * q n) * A k c + ∑ k, x n k * B k c) + b c) 0;
  from a hidden array `h` and a weight `C`,   proj n j = ∑ k, h n k * C k j;
  and from the neighbour sums `p` of projected rows, `h`, `q`, a weight `C` and a bias row `b`,
      out n j  = (p n j * q n + b j) + ∑ k, h n k * C k j.
-/
import Idealize.ShloMosaic.PureOps.Ideal
import Idealize.ShloMosaic.Lib.ValueIdx

noncomputable section

namespace Cert.Sage.Spec

open Idealize.ShloMosaic Idealize.ShloMosaic.ValueIdx

/-- The hidden layer at node `n`, channel `c`. -/
def hidAt (s x : (⟨2, ![100000, 128]⟩ : Shape).Idx → EReal) (q : (⟨2, ![100000, 1]⟩ : Shape).Idx → EReal)
    (A B : (⟨2, ![128, 256]⟩ : Shape).Idx → EReal) (b : (⟨2, ![1, 256]⟩ : Shape).Idx → EReal)
    (n : Fin 100000) (c : Fin 256) : EReal :=
  max (((∑ k : Fin 128, (s (ix2 n k) * q (ix2 n (0 : Fin 1))) * A (ix2 k c))
        + ∑ k : Fin 128, x (ix2 n k) * B (ix2 k c)) + b (ix2 (0 : Fin 1) c)) 0

/-- The hidden layer as an array. -/
def hidArr (s x : (⟨2, ![100000, 128]⟩ : Shape).Idx → EReal) (q : (⟨2, ![100000, 1]⟩ : Shape).Idx → EReal)
    (A B : (⟨2, ![128, 256]⟩ : Shape).Idx → EReal) (b : (⟨2, ![1, 256]⟩ : Shape).Idx → EReal) :
    (⟨2, ![100000, 256]⟩ : Shape).Idx → EReal :=
  fun i => hidAt s x q A B b (i 0) (i 1)

/-- A hidden array projected by a [256, 64] weight, at node `n`, channel `j`. -/
def projAt (h : (⟨2, ![100000, 256]⟩ : Shape).Idx → EReal) (C : (⟨2, ![256, 64]⟩ : Shape).Idx → EReal)
    (n : Fin 100000) (j : Fin 64) : EReal :=
  ∑ k : Fin 256, h (ix2 n k) * C (ix2 k j)

/-- The projection as an array. -/
def projArr (h : (⟨2, ![100000, 256]⟩ : Shape).Idx → EReal) (C : (⟨2, ![256, 64]⟩ : Shape).Idx → EReal) :
    (⟨2, ![100000, 64]⟩ : Shape).Idx → EReal :=
  fun i => projAt h C (i 0) (i 1)

/-- The second layer at node `n`, channel `j`. -/
def outAt (p : (⟨2, ![100000, 64]⟩ : Shape).Idx → EReal) (h : (⟨2, ![100000, 256]⟩ : Shape).Idx → EReal)
    (q : (⟨2, ![100000, 1]⟩ : Shape).Idx → EReal) (C : (⟨2, ![256, 64]⟩ : Shape).Idx → EReal)
    (b : (⟨2, ![1, 64]⟩ : Shape).Idx → EReal) (n : Fin 100000) (j : Fin 64) : EReal :=
  ((p (ix2 n j) * q (ix2 n (0 : Fin 1))) + b (ix2 (0 : Fin 1) j)) + ∑ k : Fin 256, h (ix2 n k) * C (ix2 k j)

/-- The second layer as an array. -/
def outArr (p : (⟨2, ![100000, 64]⟩ : Shape).Idx → EReal) (h : (⟨2, ![100000, 256]⟩ : Shape).Idx → EReal)
    (q : (⟨2, ![100000, 1]⟩ : Shape).Idx → EReal) (C : (⟨2, ![256, 64]⟩ : Shape).Idx → EReal)
    (b : (⟨2, ![1, 64]⟩ : Shape).Idx → EReal) : (⟨2, ![100000, 64]⟩ : Shape).Idx → EReal :=
  fun i => outAt p h q C b (i 0) (i 1)

end Cert.Sage.Spec

end
-- ==== Proof.KBlocks0.lean ====
/-
  The first pallas_call's two output arrays after its fifty write-backs.

  Point `t` of the grid stages rows [2000 t, 2000 t + 2000) of the neighbour sums, of the features and of the
  reciprocal column, and the two weights, the bias row and the projection weight whole; it writes back rows
  [2000 t, 2000 t + 2000) of the hidden array and of the projected array. Row `r` of the block at point `t` is row
  `2000 t + r` of each array, so what the point writes back is that block of ONE whole-array function of the arrays
  as the region finds them (`Spec.hidArr`, and `Spec.projArr` of it); the fifty blocks tile the 100000 rows (row `n`
  is in the block of point `n / 2000`), so after the region each output array is that function.
-/
import proofs.«113687_j1168231104600_2_alg».proof.Proof.Gen.KernelIdeal.Frame
import proofs.«113687_j1168231104600_2_alg».proof.Proof.KBody
import proofs.«113687_j1168231104600_2_alg».proof.Proof.SageSpec

set_option maxRecDepth 16384

noncomputable section

namespace Cert.KernelIdeal.KBlocks0

open Cert.KernelIdeal Cert.KernelIdeal.Gen Cert.KernelIdeal.KBody Cert.Sage.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the fifty points: the row-blocked windows sit at block row `t`, column block
    0; the whole-array windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The hidden block's payload at block entry `j`, when the blocks it reads are the rows of the arrays that entry
    `i` of the hidden array depends on. -/
theorem hid_at (x0 x1 : Vec Ideal S2000x128 .f32) (x2 : Vec Ideal S2000x1 .f32) (x3 x4 : Vec Ideal S128x256 .bf16)
    (x5 : Vec Ideal S1x256 .f32)
    (s x : S100000x128.Idx → EReal) (q : S100000x1.Idx → EReal) (A B : S128x256.Idx → EReal) (b : S1x256.Idx → EReal)
    (j : S2000x256.Idx) (i : S100000x256.Idx) (hc : (i 1).val = (j 1).val)
    (h0 : ∀ k : Fin 128, x0 (ix2 (j 0) k) = s (ix2 (i 0) k)) (h1 : ∀ k : Fin 128, x1 (ix2 (j 0) k) = x (ix2 (i 0) k))
    (h2 : x2 (ix2 (j 0) (0 : Fin 1)) = q (ix2 (i 0) (0 : Fin 1))) (h3 : x3 = A) (h4 : x4 = B) (h5 : x5 = b) :
    k0_pay1 (F := Ideal) x0 x2 x1 x3 x4 x5 j = hidArr s x q A B b i := by
  subst h3 h4 h5
  obtain ⟨p, cq, rfl⟩ : ∃ (p : Fin 2000) (cq : Fin 256), j = ix2 p cq := ⟨j 0, j 1, eq_ix2 j⟩
  obtain ⟨n, cc, rfl⟩ : ∃ (n : Fin 100000) (cc : Fin 256), i = ix2 n cc := ⟨i 0, i 1, eq_ix2 i⟩
  have hc' : cc = cq := Fin.ext hc
  subst hc'
  have h0' : ∀ k : Fin 128, x0 (ix2 p k) = s (ix2 n k) := h0
  have h1' : ∀ k : Fin 128, x1 (ix2 p k) = x (ix2 n k) := h1
  have h2' : x2 (ix2 p (0 : Fin 1)) = q (ix2 n (0 : Fin 1)) := h2
  refine (pay_hid x0 x2 x1 x3 x4 x5 p cc).trans ?_
  show _ = hidAt s x q x3 x4 x5 n cc
  unfold hidAt
  simp only [h0', h1', h2']

/-- The projected block's payload at block entry `j`, under the same reading of the blocks. -/
theorem proj_at (x0 x1 : Vec Ideal S2000x128 .f32) (x2 : Vec Ideal S2000x1 .f32) (x3 x4 : Vec Ideal S128x256 .bf16)
    (x5 : Vec Ideal S1x256 .f32) (x6 : Vec Ideal S256x64 .bf16)
    (s x : S100000x128.Idx → EReal) (q : S100000x1.Idx → EReal) (A B : S128x256.Idx → EReal) (b : S1x256.Idx → EReal)
    (C : S256x64.Idx → EReal)
    (j : S2000x64.Idx) (i : S100000x64.Idx) (hc : (i 1).val = (j 1).val)
    (h0 : ∀ k : Fin 128, x0 (ix2 (j 0) k) = s (ix2 (i 0) k)) (h1 : ∀ k : Fin 128, x1 (ix2 (j 0) k) = x (ix2 (i 0) k))
    (h2 : x2 (ix2 (j 0) (0 : Fin 1)) = q (ix2 (i 0) (0 : Fin 1))) (h3 : x3 = A) (h4 : x4 = B) (h5 : x5 = b)
    (h6 : x6 = C) :
    k0_pay2 (F := Ideal) x0 x2 x1 x3 x4 x5 x6 j = projArr (hidArr s x q A B b) C i := by
  subst h6
  obtain ⟨p, cq, rfl⟩ : ∃ (p : Fin 2000) (cq : Fin 64), j = ix2 p cq := ⟨j 0, j 1, eq_ix2 j⟩
  obtain ⟨n, cc, rfl⟩ : ∃ (n : Fin 100000) (cc : Fin 64), i = ix2 n cc := ⟨i 0, i 1, eq_ix2 i⟩
  have hc' : cc = cq := Fin.ext hc
  subst hc'
  refine (pay_proj x0 x2 x1 x3 x4 x5 x6 p cc).trans ?_
  show _ = projAt (hidArr s x q A B b) x6 n cc
  unfold projAt
  refine Finset.sum_congr rfl fun k _ => ?_
  refine congrArg (· * x6 (ix2 k cc)) ?_
  exact hid_at x0 x1 x2 x3 x4 x5 s x q A B b (ix2 p k) (ix2 n k) rfl h0 h1 h2 h3 h4 h5

/-- WHAT POINT `t` WRITES BACK of the hidden array: its block of `hidArr` of the arrays as the region finds them. -/
theorem flushed7_eq (c : Dev nD) (t : Fin cfg0.N) :
    (dat0 V c).flushed 7 t = ((cfg0.win 7).blk t).view.read (Elt Ideal)
      (hidArr (V c main_v22) (V c main_arg0) (V c main_v12) (V c main_v23) (V c main_v24) (V c main_v26)) := by
  show (cfg0.win 7).cut (grid0.coords t) ((dat0 V c).after 7 t) = _
  rw [after0_7]
  unfold out0_7
  rw [View.canon_unit_zero hz2]
  simp only [View.ld_unit_zero (S := S2000x128) hz2, View.ld_unit_zero (S := S2000x1) hz2,
    View.ld_unit_zero (S := S128x256) hz2, View.ld_unit_zero (S := S1x256) hz2]
  obtain ⟨⟨e00, e01⟩, ⟨e10, e11⟩, ⟨e20, e21⟩, ⟨e30, e31⟩, ⟨e40, e41⟩, ⟨e50, e51⟩, -, ⟨e70, e71⟩, -⟩ := idx_facts t
  funext j
  show k0_pay1 (F := Ideal) (iblk0 V c 0 t) (iblk0 V c 2 t) (iblk0 V c 1 t) (iblk0 V c 3 t) (iblk0 V c 4 t) (iblk0 V c 5 t) j
    = hidArr (V c main_v22) (V c main_arg0) (V c main_v12) (V c main_v23) (V c main_v24) (V c main_v26)
        (((cfg0.win 7).blk t).view.emb j)
  refine hid_at _ _ _ _ _ _ _ _ _ _ _ _ j _ ?_ ?_ ?_ ?_ ?_ ?_ ?_
  · show win0_7.index t (1 : Fin 2) * 256 + 1 * (j 1).val = (j 1).val
    omega
  · intro k
    show V c main_v22 (((cfg0.win 0).blk t).view.emb (ix2 (j 0) k)) = V c main_v22 (ix2 ((((cfg0.win 7).blk t).view.emb j) 0) k)
    refine congrArg _ (funext fun a => Fin.ext ?_)
    match a with
    | ⟨0, _⟩ =>
      show win0_0.index t (0 : Fin 2) * 2000 + 1 * (j 0).val = win0_7.index t (0 : Fin 2) * 2000 + 1 * (j 0).val
      omega
    | ⟨1, _⟩ =>
      show win0_0.index t (1 : Fin 2) * 128 + 1 * k.val = k.val
      omega
  · intro k
    show V c main_arg0 (((cfg0.win 1).blk t).view.emb (ix2 (j 0) k)) = V c main_arg0 (ix2 ((((cfg0.win 7).blk t).view.emb j) 0) k)
    refine congrArg _ (funext fun a => Fin.ext ?_)
    match a with
    | ⟨0, _⟩ =>
      show win0_1.index t (0 : Fin 2) * 2000 + 1 * (j 0).val = win0_7.index t (0 : Fin 2) * 2000 + 1 * (j 0).val
      omega
    | ⟨1, _⟩ =>
      show win0_1.index t (1 : Fin 2) * 128 + 1 * k.val = k.val
      omega
  · show V c main_v12 (((cfg0.win 2).blk t).view.emb (ix2 (j 0) (0 : Fin 1))) = V c main_v12 (ix2 ((((cfg0.win 7).blk t).view.emb j) 0) (0 : Fin 1))
    refine congrArg _ (funext fun a => Fin.ext ?_)
    match a with
    | ⟨0, _⟩ =>
      show win0_2.index t (0 : Fin 2) * 2000 + 1 * (j 0).val = win0_7.index t (0 : Fin 2) * 2000 + 1 * (j 0).val
      omega
    | ⟨1, _⟩ =>
      show win0_2.index t (1 : Fin 2) * 1 + 1 * 0 = 0
      omega
  ·
    funext y
    show V c main_v23 (((cfg0.win 3).blk t).view.emb y) = V c main_v23 y
    refine congrArg _ (funext fun a => Fin.ext ?_)
    match a with
    | ⟨0, _⟩ =>
      show win0_3.index t (0 : Fin 2) * 128 + 1 * (y 0).val = (y 0).val
      omega
    | ⟨1, _⟩ =>
      show win0_3.index t (1 : Fin 2) * 256 + 1 * (y 1).val = (y 1).val
      omega
  ·
    funext y
    show V c main_v24 (((cfg0.win 4).blk t).view.emb y) = V c main_v24 y
    refine congrArg _ (funext fun a => Fin.ext ?_)
    match a with
    | ⟨0, _⟩ =>
      show win0_4.index t (0 : Fin 2) * 128 + 1 * (y 0).val = (y 0).val
      omega
    | ⟨1, _⟩ =>
      show win0_4.index t (1 : Fin 2) * 256 + 1 * (y 1).val = (y 1).val
      omega
  ·
    funext y
    show V c main_v26 (((cfg0.win 5).blk t).view.emb y) = V c main_v26 y
    refine congrArg _ (funext fun a => Fin.ext ?_)
    match a with
    | ⟨0, _⟩ =>
      show win0_5.index t (0 : Fin 2) * 1 + 1 * (y 0).val = (y 0).val
      omega
    | ⟨1, _⟩ =>
      show win0_5.index t (1 : Fin 2) * 256 + 1 * (y 1).val = (y 1).val
      omega

/-- WHAT POINT `t` WRITES BACK of the projected array: its block of `projArr` of `hidArr`. -/
theorem flushed8_eq (c : Dev nD) (t : Fin cfg0.N) :
    (dat0 V c).flushed 8 t = ((cfg0.win 8).blk t).view.read (Elt Ideal)
      (projArr (hidArr (V c main_v22) (V c main_arg0) (V c main_v12) (V c main_v23) (V c main_v24) (V c main_v26))
        (V c main_v25)) := by
  show (cfg0.win 8).cut (grid0.coords t) ((dat0 V c).after 8 t) = _
  rw [after0_8]
  unfold out0_8
  rw [View.canon_unit_zero hz2]
  simp only [View.ld_unit_zero (S := S2000x128) hz2, View.ld_unit_zero (S := S2000x1) hz2,
    View.ld_unit_zero (S := S128x256) hz2, View.ld_unit_zero (S := S1x256) hz2, View.ld_unit_zero (S := S256x64) hz2]
  obtain ⟨⟨e00, e01⟩, ⟨e10, e11⟩, ⟨e20, e21⟩, ⟨e30, e31⟩, ⟨e40, e41⟩, ⟨e50, e51⟩, ⟨e60, e61⟩, -, ⟨e80, e81⟩⟩ := idx_facts t
  funext j
  show k0_pay2 (F := Ideal) (iblk0 V c 0 t) (iblk0 V c 2 t) (iblk0 V c 1 t) (iblk0 V c 3 t) (iblk0 V c 4 t) (iblk0 V c 5 t)
      (iblk0 V c 6 t) j
    = projArr (hidArr (V c main_v22) (V c main_arg0) (V c main_v12) (V c main_v23) (V c main_v24) (V c main_v26))
        (V c main_v25) (((cfg0.win 8).blk t).view.emb j)
  refine proj_at _ _ _ _ _ _ _ _ _ _ _ _ _ _ j _ ?_ ?_ ?_ ?_ ?_ ?_ ?_ ?_
  · show win0_8.index t (1 : Fin 2) * 64 + 1 * (j 1).val = (j 1).val
    omega
  · intro k
    show V c main_v22 (((cfg0.win 0).blk t).view.emb (ix2 (j 0) k)) = V c main_v22 (ix2 ((((cfg0.win 8).blk t).view.emb j) 0) k)
    refine congrArg _ (funext fun a => Fin.ext ?_)
    match a with
    | ⟨0, _⟩ =>
      show win0_0.index t (0 : Fin 2) * 2000 + 1 * (j 0).val = win0_8.index t (0 : Fin 2) * 2000 + 1 * (j 0).val
      omega
    | ⟨1, _⟩ =>
      show win0_0.index t (1 : Fin 2) * 128 + 1 * k.val = k.val
      omega
  · intro k
    show V c main_arg0 (((cfg0.win 1).blk t).view.emb (ix2 (j 0) k)) = V c main_arg0 (ix2 ((((cfg0.win 8).blk t).view.emb j) 0) k)
    refine congrArg _ (funext fun a => Fin.ext ?_)
    match a with
    | ⟨0, _⟩ =>
      show win0_1.index t (0 : Fin 2) * 2000 + 1 * (j 0).val = win0_8.index t (0 : Fin 2) * 2000 + 1 * (j 0).val
      omega
    | ⟨1, _⟩ =>
      show win0_1.index t (1 : Fin 2) * 128 + 1 * k.val = k.val
      omega
  · show V c main_v12 (((cfg0.win 2).blk t).view.emb (ix2 (j 0) (0 : Fin 1))) = V c main_v12 (ix2 ((((cfg0.win 8).blk t).view.emb j) 0) (0 : Fin 1))
    refine congrArg _ (funext fun a => Fin.ext ?_)
    match a with
    | ⟨0, _⟩ =>
      show win0_2.index t (0 : Fin 2) * 2000 + 1 * (j 0).val = win0_8.index t (0 : Fin 2) * 2000 + 1 * (j 0).val
      omega
    | ⟨1, _⟩ =>
      show win0_2.index t (1 : Fin 2) * 1 + 1 * 0 = 0
      omega
  ·
    funext y
    show V c main_v23 (((cfg0.win 3).blk t).view.emb y) = V c main_v23 y
    refine congrArg _ (funext fun a => Fin.ext ?_)
    match a with
    | ⟨0, _⟩ =>
      show win0_3.index t (0 : Fin 2) * 128 + 1 * (y 0).val = (y 0).val
      omega
    | ⟨1, _⟩ =>
      show win0_3.index t (1 : Fin 2) * 256 + 1 * (y 1).val = (y 1).val
      omega
  ·
    funext y
    show V c main_v24 (((cfg0.win 4).blk t).view.emb y) = V c main_v24 y
    refine congrArg _ (funext fun a => Fin.ext ?_)
    match a with
    | ⟨0, _⟩ =>
      show win0_4.index t (0 : Fin 2) * 128 + 1 * (y 0).val = (y 0).val
      omega
    | ⟨1, _⟩ =>
      show win0_4.index t (1 : Fin 2) * 256 + 1 * (y 1).val = (y 1).val
      omega
  ·
    funext y
    show V c main_v26 (((cfg0.win 5).blk t).view.emb y) = V c main_v26 y
    refine congrArg _ (funext fun a => Fin.ext ?_)
    match a with
    | ⟨0, _⟩ =>
      show win0_5.index t (0 : Fin 2) * 1 + 1 * (y 0).val = (y 0).val
      omega
    | ⟨1, _⟩ =>
      show win0_5.index t (1 : Fin 2) * 256 + 1 * (y 1).val = (y 1).val
      omega
  ·
    funext y
    show V c main_v25 (((cfg0.win 6).blk t).view.emb y) = V c main_v25 y
    refine congrArg _ (funext fun a => Fin.ext ?_)
    match a with
    | ⟨0, _⟩ =>
      show win0_6.index t (0 : Fin 2) * 256 + 1 * (y 0).val = (y 0).val
      omega
    | ⟨1, _⟩ =>
      show win0_6.index t (1 : Fin 2) * 64 + 1 * (y 1).val = (y 1).val
      omega

/-- An index of the array is in point `t`'s block of window 7 iff each coordinate is in the block's range. -/
theorem mem_blk7 (t : Fin cfg0.N) (i : S100000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v27_0).slice (win0_7.rect t)).set ↔ _
  rw [View.set_slice_whole, Rect.mem_set_unit]
  exact Iff.rfl

/-- Every row is in the block of the point that is its quotient by 2000. -/
theorem cover7 (i : S100000x256.Idx) :
    ∃ t : Fin cfg0.N, (cfg0.win 7).flush t = true ∧ i ∈ ((cfg0.win 7).blk t).view.set := by
  have hi0 : (i 0).val < 100000 := (i 0).isLt
  have hi1 : (i 1).val < 256 := (i 1).isLt
  have hN : grid0.N = 50 := N_0
  have ht : (i 0).val / 2000 < cfg0.N := by show _ < grid0.N; omega
  refine ⟨⟨(i 0).val / 2000, ht⟩, flush0_7 _, ?_⟩
  rw [mem_blk7]
  obtain ⟨-, -, -, -, -, -, -, ⟨e70, e71⟩, ⟨e80, e81⟩⟩ := idx_facts ⟨(i 0).val / 2000, ht⟩
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    rw [e70]
    show (i 0).val / 2000 * 2000 ≤ (i 0).val ∧ (i 0).val < (i 0).val / 2000 * 2000 + 2000
    omega
  | ⟨1, _⟩ =>
    show win0_7.index ⟨(i 0).val / 2000, ht⟩ (1 : Fin 2) * 256 ≤ (i 1).val
      ∧ (i 1).val < win0_7.index ⟨(i 0).val / 2000, ht⟩ (1 : Fin 2) * 256 + 256
    rw [e71]
    omega

/-- An index of the array is in point `t`'s block of window 8 iff each coordinate is in the block's range. -/
theorem mem_blk8 (t : Fin cfg0.N) (i : S100000x64.Idx) :
    i ∈ ((cfg0.win 8).blk t).view.set ↔ ∀ a : Fin 2, win0_8.index t a * S2000x64.size a ≤ (i a).val
      ∧ (i a).val < win0_8.index t a * S2000x64.size a + S2000x64.size a := by
  show i ∈ ((View.whole main_v27_1).slice (win0_8.rect t)).set ↔ _
  rw [View.set_slice_whole, Rect.mem_set_unit]
  exact Iff.rfl

/-- Every row is in the block of the point that is its quotient by 2000. -/
theorem cover8 (i : S100000x64.Idx) :
    ∃ t : Fin cfg0.N, (cfg0.win 8).flush t = true ∧ i ∈ ((cfg0.win 8).blk t).view.set := by
  have hi0 : (i 0).val < 100000 := (i 0).isLt
  have hi1 : (i 1).val < 64 := (i 1).isLt
  have hN : grid0.N = 50 := N_0
  have ht : (i 0).val / 2000 < cfg0.N := by show _ < grid0.N; omega
  refine ⟨⟨(i 0).val / 2000, ht⟩, flush0_8 _, ?_⟩
  rw [mem_blk8]
  obtain ⟨-, -, -, -, -, -, -, ⟨e70, e71⟩, ⟨e80, e81⟩⟩ := idx_facts ⟨(i 0).val / 2000, ht⟩
  intro a
  match a with
  | ⟨0, _⟩ =>
    show win0_8.index ⟨(i 0).val / 2000, ht⟩ (0 : Fin 2) * 2000 ≤ (i 0).val
      ∧ (i 0).val < win0_8.index ⟨(i 0).val / 2000, ht⟩ (0 : Fin 2) * 2000 + 2000
    rw [e80]
    show (i 0).val / 2000 * 2000 ≤ (i 0).val ∧ (i 0).val < (i 0).val / 2000 * 2000 + 2000
    omega
  | ⟨1, _⟩ =>
    show win0_8.index ⟨(i 0).val / 2000, ht⟩ (1 : Fin 2) * 64 ≤ (i 1).val
      ∧ (i 1).val < win0_8.index ⟨(i 0).val / 2000, ht⟩ (1 : Fin 2) * 64 + 64
    rw [e81]
    omega

/-- THE HIDDEN ARRAY after the region. -/
theorem final7 (c : Dev nD) : (dat0 V c).arrAt 7 cfg0.N
    = hidArr (V c main_v22) (V c main_arg0) (V c main_v12) (V c main_v23) (V c main_v24) (V c main_v26) :=
  (dat0 V c).arrAt_eq_of_cover 7 _ (fun t _ => flushed7_eq V c t) cover7

/-- THE PROJECTED ARRAY after the region. -/
theorem final8 (c : Dev nD) : (dat0 V c).arrAt 8 cfg0.N
    = projArr (hidArr (V c main_v22) (V c main_arg0) (V c main_v12) (V c main_v23) (V c main_v24) (V c main_v26))
        (V c main_v25) :=
  (dat0 V c).arrAt_eq_of_cover 8 _ (fun t _ => flushed8_eq V c t) cover8

end Cert.KernelIdeal.KBlocks0

end
-- ==== Proof.KBlocks1.lean ====
/-
  The second pallas_call's output array after its twenty write-backs.

  Point `t` stages rows [5000 t, 5000 t + 5000) of the neighbour sums of projected rows, of the hidden array and of
  the reciprocal column, and the weight and the bias row whole; it writes back the same rows of the result. What it
  writes back is that block of ONE whole-array function (`Spec.outArr`) of the arrays as the region finds them, and
  the twenty blocks tile the 100000 rows (row `n` is in the block of point `n / 5000`).
-/
import proofs.«113687_j1168231104600_2_alg».proof.Proof.Gen.KernelIdeal.Frame
import proofs.«113687_j1168231104600_2_alg».proof.Proof.KBody
import proofs.«113687_j1168231104600_2_alg».proof.Proof.SageSpec

set_option maxRecDepth 16384

noncomputable section

namespace Cert.KernelIdeal.KBlocks1

open Cert.KernelIdeal Cert.KernelIdeal.Gen Cert.KernelIdeal.KBody Cert.Sage.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the twenty points: the row-blocked windows sit at block row `t`, column
    block 0; the whole-array windows at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

/-- The body's payload at block entry `j`, when the blocks it reads are the rows of the arrays that entry `i` of the
    result depends on. -/
theorem out_at (x0 : Vec Ideal S5000x64 .f32) (x1 : Vec Ideal S5000x256 .bf16) (x2 : Vec Ideal S5000x1 .f32)
    (x3 : Vec Ideal S256x64 .bf16) (x4 : Vec Ideal S1x64 .f32)
    (p : S100000x64.Idx → EReal) (h : S100000x256.Idx → EReal) (q : S100000x1.Idx → EReal)
    (C : S256x64.Idx → EReal) (b : S1x64.Idx → EReal)
    (j : S5000x64.Idx) (i : S100000x64.Idx) (hc : (i 1).val = (j 1).val)
    (h0 : x0 (ix2 (j 0) (j 1)) = p (ix2 (i 0) (j 1))) (h1 : ∀ k : Fin 256, x1 (ix2 (j 0) k) = h (ix2 (i 0) k))
    (h2 : x2 (ix2 (j 0) (0 : Fin 1)) = q (ix2 (i 0) (0 : Fin 1))) (h3 : x3 = C) (h4 : x4 = b) :
    k1_pay1 (F := Ideal) x0 x2 x1 x4 x3 j = outArr p h q C b i := by
  subst h3 h4
  obtain ⟨r, cq, rfl⟩ : ∃ (r : Fin 5000) (cq : Fin 64), j = ix2 r cq := ⟨j 0, j 1, eq_ix2 j⟩
  obtain ⟨n, cc, rfl⟩ : ∃ (n : Fin 100000) (cc : Fin 64), i = ix2 n cc := ⟨i 0, i 1, eq_ix2 i⟩
  have hc' : cc = cq := Fin.ext hc
  subst hc'
  have h0' : x0 (ix2 r cc) = p (ix2 n cc) := h0
  have h1' : ∀ k : Fin 256, x1 (ix2 r k) = h (ix2 n k) := h1
  have h2' : x2 (ix2 r (0 : Fin 1)) = q (ix2 n (0 : Fin 1)) := h2
  refine (pay_out x0 x2 x1 x4 x3 r cc).trans ?_
  show _ = outAt p h q x3 x4 n cc
  unfold outAt
  simp only [h0', h1', h2']

/-- WHAT POINT `t` WRITES BACK: its block of `outArr` of the arrays as the region finds them. -/
theorem flushed5_eq (c : Dev nD) (t : Fin cfg1.N) :
    (dat1 V c).flushed 5 t = ((cfg1.win 5).blk t).view.read (Elt Ideal)
      (outArr (V c main_v37) (V c main_v27_0) (V c main_v12) (V c main_v38) (V c main_v39)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S5000x1) hz2,
    View.ld_unit_zero (S := S5000x256) hz2, View.ld_unit_zero (S := S1x64) hz2, View.ld_unit_zero (S := S256x64) hz2]
  obtain ⟨⟨e00, e01⟩, ⟨e10, e11⟩, ⟨e20, e21⟩, ⟨e30, e31⟩, ⟨e40, e41⟩, ⟨e50, e51⟩⟩ := idx_facts t
  funext j
  show k1_pay1 (F := Ideal) (iblk1 V c 0 t) (iblk1 V c 2 t) (iblk1 V c 1 t) (iblk1 V c 4 t) (iblk1 V c 3 t) j
    = outArr (V c main_v37) (V c main_v27_0) (V c main_v12) (V c main_v38) (V c main_v39)
        (((cfg1.win 5).blk t).view.emb j)
  refine out_at _ _ _ _ _ _ _ _ _ _ j _ ?_ ?_ ?_ ?_ ?_ ?_
  · show win1_5.index t (1 : Fin 2) * 64 + 1 * (j 1).val = (j 1).val
    omega
  ·
    show V c main_v37 (((cfg1.win 0).blk t).view.emb (ix2 (j 0) (j 1))) = V c main_v37 (ix2 ((((cfg1.win 5).blk t).view.emb j) 0) (j 1))
    refine congrArg _ (funext fun a => Fin.ext ?_)
    match a with
    | ⟨0, _⟩ =>
      show win1_0.index t (0 : Fin 2) * 5000 + 1 * (j 0).val = win1_5.index t (0 : Fin 2) * 5000 + 1 * (j 0).val
      omega
    | ⟨1, _⟩ =>
      show win1_0.index t (1 : Fin 2) * 64 + 1 * ((j 1) : Fin 64).val = ((j 1) : Fin 64).val
      omega
  · intro k
    show V c main_v27_0 (((cfg1.win 1).blk t).view.emb (ix2 (j 0) k)) = V c main_v27_0 (ix2 ((((cfg1.win 5).blk t).view.emb j) 0) k)
    refine congrArg _ (funext fun a => Fin.ext ?_)
    match a with
    | ⟨0, _⟩ =>
      show win1_1.index t (0 : Fin 2) * 5000 + 1 * (j 0).val = win1_5.index t (0 : Fin 2) * 5000 + 1 * (j 0).val
      omega
    | ⟨1, _⟩ =>
      show win1_1.index t (1 : Fin 2) * 256 + 1 * (k : Fin 256).val = (k : Fin 256).val
      omega
  · show V c main_v12 (((cfg1.win 2).blk t).view.emb (ix2 (j 0) (0 : Fin 1))) = V c main_v12 (ix2 ((((cfg1.win 5).blk t).view.emb j) 0) (0 : Fin 1))
    refine congrArg _ (funext fun a => Fin.ext ?_)
    match a with
    | ⟨0, _⟩ =>
      show win1_2.index t (0 : Fin 2) * 5000 + 1 * (j 0).val = win1_5.index t (0 : Fin 2) * 5000 + 1 * (j 0).val
      omega
    | ⟨1, _⟩ =>
      show win1_2.index t (1 : Fin 2) * 1 + 1 * 0 = 0
      omega
  ·
    funext y
    show V c main_v38 (((cfg1.win 3).blk t).view.emb y) = V c main_v38 y
    refine congrArg _ (funext fun a => Fin.ext ?_)
    match a with
    | ⟨0, _⟩ =>
      show win1_3.index t (0 : Fin 2) * 256 + 1 * (y 0).val = (y 0).val
      omega
    | ⟨1, _⟩ =>
      show win1_3.index t (1 : Fin 2) * 64 + 1 * (y 1).val = (y 1).val
      omega
  ·
    funext y
    show V c main_v39 (((cfg1.win 4).blk t).view.emb y) = V c main_v39 y
    refine congrArg _ (funext fun a => Fin.ext ?_)
    match a with
    | ⟨0, _⟩ =>
      show win1_4.index t (0 : Fin 2) * 1 + 1 * (y 0).val = (y 0).val
      omega
    | ⟨1, _⟩ =>
      show win1_4.index t (1 : Fin 2) * 64 + 1 * (y 1).val = (y 1).val
      omega

/-- An index of the array is in point `t`'s block iff each coordinate is in the block's range. -/
theorem mem_blk5 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v40).slice (win1_5.rect t)).set ↔ _
  rw [View.set_slice_whole, Rect.mem_set_unit]
  exact Iff.rfl

/-- Every row is in the block of the point that is its quotient by 5000. -/
theorem cover5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 20 := N_1
  have ht : (i 0).val / 5000 < cfg1.N := by show _ < grid1.N; omega
  refine ⟨⟨(i 0).val / 5000, ht⟩, flush1_5 _, ?_⟩
  rw [mem_blk5]
  obtain ⟨-, -, -, -, -, ⟨e50, e51⟩⟩ := idx_facts ⟨(i 0).val / 5000, ht⟩
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    rw [e51]
    omega

/-- THE RESULT ARRAY after the region. -/
theorem final5 (c : Dev nD) : (dat1 V c).arrAt 5 cfg1.N
    = outArr (V c main_v37) (V c main_v27_0) (V c main_v12) (V c main_v38) (V c main_v39) :=
  (dat1 V c).arrAt_eq_of_cover 5 _ (fun t _ => flushed5_eq V c t) cover5

end Cert.KernelIdeal.KBlocks1

end
-- ==== Proof.KArgs.lean ====
/-
  The eight arguments of the idealized kernel program on a core, named at the types the reference program gives the
  same arrays (the two programs' shapes are the same literals).
-/
import proofs.«113687_j1168231104600_2_alg».proof.Proof.Gen.KernelIdeal.Frame
import Idealize.ShloMosaic.PureOps.Ideal

noncomputable section

namespace Cert.KernelIdeal.KArgs

open Cert.KernelIdeal Idealize.ShloMosaic Idealize.ShloMosaic.TcCoe Idealize.SL.Sem

variable (m : (ℓ : Loc nD τ sig) → Buf (Elt Ideal) ℓ)

abbrev ax (c : Dev nD) : (⟨S100000x128, .f32⟩ : BufTy).Contents (Elt Ideal) := m ((c.tc : Thread nD τ).loc main_arg0)
abbrev aei (c : Dev nD) : (⟨S2x400000, .i32⟩ : BufTy).Contents (Elt Ideal) := m ((c.tc : Thread nD τ).loc main_arg1)
abbrev aW1l (c : Dev nD) : (⟨S128x256, .f32⟩ : BufTy).Contents (Elt Ideal) := m ((c.tc : Thread nD τ).loc main_arg2)
abbrev ab1 (c : Dev nD) : (⟨S256, .f32⟩ : BufTy).Contents (Elt Ideal) := m ((c.tc : Thread nD τ).loc main_arg3)
abbrev aW1r (c : Dev nD) : (⟨S128x256, .f32⟩ : BufTy).Contents (Elt Ideal) := m ((c.tc : Thread nD τ).loc main_arg4)
abbrev aW2l (c : Dev nD) : (⟨S256x64, .f32⟩ : BufTy).Contents (Elt Ideal) := m ((c.tc : Thread nD τ).loc main_arg5)
abbrev ab2 (c : Dev nD) : (⟨S64, .f32⟩ : BufTy).Contents (Elt Ideal) := m ((c.tc : Thread nD τ).loc main_arg6)
abbrev aW2r (c : Dev nD) : (⟨S256x64, .f32⟩ : BufTy).Contents (Elt Ideal) := m ((c.tc : Thread nD τ).loc main_arg7)

end Cert.KernelIdeal.KArgs

end
-- ==== Proof.KHost0a.lean ====
/-
  What the host operations before the first pallas_call leave in the buffers its windows read (first part).

  The layer-1 neighbour sums and the clamped in-degree are computed by the SAME operations as in the reference
  program (the two slices of the edge array, the wrap of negative source indices, the row gather, the two
  scatter-adds into zeros, the maximum with one), so they are stated as the reference's own terms; the reciprocal
  column is the reshape to [100000, 1] of `1 / max(deg, 1)`; the features pass through unchanged.
-/
import proofs.«113687_j1168231104600_2_alg».proof.Proof.Gen.KernelIdeal.Frame
import proofs.«113687_j1168231104600_2_alg».proof.Proof.RefValue
import Idealize.ShloMosaic.Lib.StableHlo.Run
import proofs.«113687_j1168231104600_2_alg».proof.Proof.KArgs
set_option maxRecDepth 16384

noncomputable section

namespace Cert.KernelIdeal.KHost0a

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

open Cert.KernelIdeal.KArgs
set_option maxHeartbeats 4000000 in
theorem V1_arg0 (c : Dev nD) : (V1 m ρ c main_arg0 : S100000x128.Idx → EReal) = ax m c := by
  dsimp only [V1, W1, hostOps0]; after_results

set_option maxHeartbeats 4000000 in
theorem V1_v22 (c : Dev nD) : (V1 m ρ c main_v22 : S100000x128.Idx → EReal)
    = Cert.ReferenceIdeal.RefValue.M1 (ax m c) (aei m c) := by
  dsimp only [V1, W1, hostOps0]; after_results; rfl

set_option maxHeartbeats 4000000 in
theorem V1_v12 (c : Dev nD) : (V1 m ρ c main_v12 : S100000x1.Idx → EReal)
    = shapeCast S100000x1 (Host.divf (F := Ideal) (φ := .f32) Cert.ReferenceIdeal.RefValue.onesN
        (Cert.ReferenceIdeal.RefValue.Dm (aei m c))) shapeCasts_S100000_S100000x1 := by
  dsimp only [V1, W1, hostOps0]; after_results; rfl

end Cert.KernelIdeal.KHost0a

end
-- ==== Proof.KHost0b.lean ====
/-
  What the host operations before the first pallas_call leave in the buffers its windows read (second part): the
  three weights are changes of float format of their arguments — the identity on extended reals — and the bias is
  its argument reshaped to one row.
-/
import proofs.«113687_j1168231104600_2_alg».proof.Proof.Gen.KernelIdeal.Frame
import proofs.«113687_j1168231104600_2_alg».proof.Proof.RefValue
import Idealize.ShloMosaic.Lib.StableHlo.Run
import proofs.«113687_j1168231104600_2_alg».proof.Proof.KArgs
set_option maxRecDepth 16384

noncomputable section

namespace Cert.KernelIdeal.KHost0b

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

open Cert.KernelIdeal.KArgs
set_option maxHeartbeats 4000000 in
theorem V1_v23 (c : Dev nD) : (V1 m ρ c main_v23 : S128x256.Idx → EReal) = aW1l m c := by
  dsimp only [V1, W1, hostOps0]; after_results; rfl

set_option maxHeartbeats 4000000 in
theorem V1_v24 (c : Dev nD) : (V1 m ρ c main_v24 : S128x256.Idx → EReal) = aW1r m c := by
  dsimp only [V1, W1, hostOps0]; after_results; rfl

set_option maxHeartbeats 4000000 in
theorem V1_v25 (c : Dev nD) : (V1 m ρ c main_v25 : S256x64.Idx → EReal) = aW2l m c := by
  dsimp only [V1, W1, hostOps0]; after_results; rfl

set_option maxHeartbeats 4000000 in
theorem V1_v26 (c : Dev nD) : (V1 m ρ c main_v26 : S1x256.Idx → EReal)
    = shapeCast S1x256 (ab1 m c) shapeCasts_S256_S1x256 := by
  dsimp only [V1, W1, hostOps0]; after_results; rfl

end Cert.KernelIdeal.KHost0b

end
-- ==== Proof.KHost1a.lean ====
/-
  Between the two pallas_calls (first part): the neighbour sums of the PROJECTED rows.

  The host gathers rows of the first call's second output array (the projected hidden rows) by the wrapped source
  column and scatter-adds them by the destination column into an array of zeros. The two index columns are computed
  from the edge array by the same operations as in the reference program, so they are stated as the reference's
  terms; the gathered array is the first region's output array after its write-backs.
-/
import proofs.«113687_j1168231104600_2_alg».proof.Proof.Gen.KernelIdeal.Frame
import proofs.«113687_j1168231104600_2_alg».proof.Proof.RefValue
import Idealize.ShloMosaic.Lib.StableHlo.Run
import proofs.«113687_j1168231104600_2_alg».proof.Proof.KArgs
set_option maxRecDepth 16384

noncomputable section

namespace Cert.KernelIdeal.KHost1a

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

open Cert.KernelIdeal.KArgs

set_option maxHeartbeats 4000000 in
/-- The source row of the edge array, as the first stretch left it, survives the first region. -/
theorem W2_v1 (c : Dev nD) : (W2 m ρ c (Proc.devRef .tc main_v1) : S400000.Idx → BitVec 32)
    = Cert.ReferenceIdeal.Read.val_main_v1 (F := Ideal) (aei m c) :=
  (W2_of_ne m ρ c main_v1 (by decide)).trans (by dsimp only [W1, hostOps0]; after_results; rfl)

set_option maxHeartbeats 4000000 in
/-- So does the destination row. -/
theorem W2_v3 (c : Dev nD) : (W2 m ρ c (Proc.devRef .tc main_v3) : S400000.Idx → BitVec 32)
    = Cert.ReferenceIdeal.Read.val_main_v3 (F := Ideal) (aei m c) :=
  (W2_of_ne m ρ c main_v3 (by decide)).trans (by dsimp only [W1, hostOps0]; after_results; rfl)

set_option maxHeartbeats 4000000 in
/-- The neighbour sums of projected rows, as the second region finds them. -/
theorem V3_v37 (c : Dev nD) : (V3 m ρ c main_v37 : S100000x64.Idx → EReal)
    = Host.scatterAdd (F := Ideal) (φ := .f32) scatter_S100000x64_S400000x1_S400000x64_1_0_0_1
        (broadcastInDim S100000x64 ![] bcast_S_S100000x64 (constant (F := Ideal) S_ .f32 0x00000000#32))
        (Cert.ReferenceIdeal.RefValue.dI (aei m c))
        (Host.gather gather_S100000x64_S400000x1_S400000x64_1_0_n_n_0_1_164 ((dat0 (V1 m ρ) c).arrAt 8 cfg0.N)
          (Cert.ReferenceIdeal.RefValue.sI (aei m c))) := by
  dsimp only [V3, W3, hostOps1]
  after_results
  rw [W2_v1 m ρ c, W2_v3 m ρ c, W2_arr m ρ c 8]
  rfl

end Cert.KernelIdeal.KHost1a

end
-- ==== Proof.KHost1b.lean ====
/-
  Between the two pallas_calls (second part): the hidden array and the reciprocal column reach the second region
  as the first region left them (no host operation writes them); the fourth weight is a change of float format of
  its argument — the identity on extended reals — and the second bias is its argument reshaped to one row.
-/
import proofs.«113687_j1168231104600_2_alg».proof.Proof.Gen.KernelIdeal.Frame
import proofs.«113687_j1168231104600_2_alg».proof.Proof.RefValue
import Idealize.ShloMosaic.Lib.StableHlo.Run
import proofs.«113687_j1168231104600_2_alg».proof.Proof.KArgs
set_option maxRecDepth 16384

noncomputable section

namespace Cert.KernelIdeal.KHost1b

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

open Cert.KernelIdeal.KArgs

set_option maxHeartbeats 4000000 in
theorem V3_v27_0 (c : Dev nD) : (V3 m ρ c main_v27_0 : S100000x256.Idx → EReal) = (dat0 (V1 m ρ) c).arrAt 7 cfg0.N := by
  dsimp only [V3, W3, hostOps1]
  after_results
  exact W2_arr m ρ c 7

set_option maxHeartbeats 4000000 in
theorem V3_v12 (c : Dev nD) : (V3 m ρ c main_v12 : S100000x1.Idx → EReal) = V1 m ρ c main_v12 := by
  dsimp only [V3, W3, hostOps1]
  after_results
  exact (W2_arr m ρ c 2).trans (((dat0 (V1 m ρ) c).arrAt_in 2 rfl _).trans (A_eq0 (V1 m ρ) c 2))

set_option maxHeartbeats 4000000 in
theorem W2_arg7 (c : Dev nD) : (W2 m ρ c (Proc.devRef .tc main_arg7) : S256x64.Idx → EReal) = aW2r m c :=
  (W2_of_ne m ρ c main_arg7 (by decide)).trans (by dsimp only [W1, hostOps0]; after_results)

set_option maxHeartbeats 4000000 in
theorem W2_arg6 (c : Dev nD) : (W2 m ρ c (Proc.devRef .tc main_arg6) : S64.Idx → EReal) = ab2 m c :=
  (W2_of_ne m ρ c main_arg6 (by decide)).trans (by dsimp only [W1, hostOps0]; after_results)

set_option maxHeartbeats 4000000 in
theorem V3_v38 (c : Dev nD) : (V3 m ρ c main_v38 : S256x64.Idx → EReal) = aW2r m c := by
  dsimp only [V3, W3, hostOps1]
  after_results
  rw [W2_arg7 m ρ c]
  rfl

set_option maxHeartbeats 4000000 in
theorem V3_v39 (c : Dev nD) : (V3 m ρ c main_v39 : S1x64.Idx → EReal)
    = shapeCast S1x64 (ab2 m c) shapeCasts_S64_S1x64 := by
  dsimp only [V3, W3, hostOps1]
  after_results
  rw [W2_arg6 m ρ c]
  rfl

end Cert.KernelIdeal.KHost1b

end
-- ==== Proof.SageLaw.lean ====
import Idealize.ShloMosaic.PureOps.Ideal
import Mathlib.Data.EReal.Inv

/-!
# Finite extended reals and the segment-mean law

Multiplication on the extended reals is commutative and associative, but it does not
distribute over addition when an infinity is present.  Every identity below that moves a
factor through a sum is therefore proved for extended reals that are ordinary real numbers,
by pushing the coercion `ℝ → EReal` outwards and arguing in `ℝ`.
-/

noncomputable section

namespace Cert.Sage.Law

open Idealize.ShloMosaic

/-- An extended real that is an ordinary real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max {x y : EReal} (hx : IsReal x) (hy : IsReal y) : IsReal (max x y) := by
  rcases le_total x y with hxy | hxy
  · rw [max_eq_right hxy]; exact hy
  · rw [max_eq_left hxy]; exact hx

/-- The coercion `ℝ → EReal` commutes with finite sums. -/
theorem coe_sum {α : Type*} (s : Finset α) (f : α → ℝ) :
    ((∑ a ∈ s, f a : ℝ) : EReal) = ∑ a ∈ s, (f a : EReal) := by
  induction s using Finset.cons_induction with
  | empty => simp
  | cons a s ha ih => rw [Finset.sum_cons, Finset.sum_cons, EReal.coe_add, ih]

/-- A finite sum of real numbers is a real number. -/
theorem isReal_sum {α : Type*} (s : Finset α) (f : α → EReal)
    (hf : ∀ a ∈ s, IsReal (f a)) : IsReal (∑ a ∈ s, f a) := by
  induction s using Finset.cons_induction with
  | empty => simpa using isReal_zero
  | cons a s ha ih =>
    rw [Finset.sum_cons]
    exact isReal_add (hf a (Finset.mem_cons_self a s))
      (ih fun b hb => hf b (Finset.mem_cons_of_mem hb))

/-- The inverse of any extended real is a real number (`⊥⁻¹ = ⊤⁻¹ = 0`). -/
theorem isReal_inv (d : EReal) : IsReal d⁻¹ := by
  induction d with
  | bot => exact ⟨0, EReal.inv_bot⟩
  | coe r => exact ⟨r⁻¹, (EReal.coe_inv r).symm⟩
  | top => exact ⟨0, EReal.inv_top⟩

theorem isReal_inv_of_one_le {d : EReal} (_hd : 1 ≤ d) : IsReal d⁻¹ := isReal_inv d

theorem ne_zero_of_one_le {d : EReal} (hd : 1 ≤ d) : d ≠ 0 :=
  (lt_of_lt_of_le zero_lt_one hd).ne'

/-- Off zero the quotient is the product with the inverse. -/
theorem div_eq_mul_inv (x : EReal) {d : EReal} (hd : 1 ≤ d) : Ideal.div x d = x * d⁻¹ := by
  unfold Ideal.div
  rw [if_neg (ne_zero_of_one_le hd)]

theorem isReal_div {x d : EReal} (hx : IsReal x) (hd : 1 ≤ d) : IsReal (Ideal.div x d) := by
  rw [div_eq_mul_inv x hd]
  exact isReal_mul hx (isReal_inv d)

theorem isReal_div_one {d : EReal} (hd : 1 ≤ d) : IsReal (Ideal.div 1 d) :=
  isReal_div isReal_one hd

/-- Multiplying by the reciprocal is dividing; no finiteness of `x` is needed, since both
    sides are `x * d⁻¹`. -/
theorem mul_div_one (x d : EReal) (hd : 1 ≤ d) : x * Ideal.div 1 d = Ideal.div x d := by
  rw [div_eq_mul_inv 1 hd, div_eq_mul_inv x hd, one_mul]

/-- The mean over a node's incoming edges commutes with a right matrix product:
    `(∑ₑ ∑ₖ h(s e) k · W k) / d = ∑ₖ ((∑ₑ h(s e) k) / d) · W k`, for real entries. -/
theorem segmean_matmul {ι κ ε : Type*} [Fintype κ] (E : Finset ε) (s : ε → ι)
    (h : ι → κ → EReal) (W : κ → EReal) (d : EReal)
    (hh : ∀ i k, IsReal (h i k)) (hW : ∀ k, IsReal (W k)) (hd : 1 ≤ d) :
    (0 + ∑ e ∈ E, ∑ k, h (s e) k * W k) * Ideal.div 1 d
      = ∑ k, Ideal.div (0 + ∑ e ∈ E, h (s e) k) d * W k := by
  choose h' hh' using hh
  choose W' hW' using hW
  obtain ⟨c, hc⟩ := isReal_inv d
  simp only [div_eq_mul_inv _ hd, hc, hh', hW', zero_add, one_mul]
  simp only [← EReal.coe_mul, ← coe_sum]
  refine congrArg _ ?_
  rw [Finset.sum_comm, Finset.sum_mul]
  refine Finset.sum_congr rfl fun k _ => ?_
  rw [← Finset.sum_mul]
  ring

end Cert.Sage.Law
-- ==== Proof.LibSegmentSum.lean ====
/-
  ROWS GATHERED AND ROWS SCATTER-ADDED, READ AT AN INDEX.

  What \`x[src]\` of a matrix \`x : [N, C]\` at an integer column \`src : [E, 1]\` is: a \`stablehlo.gather\` of whole rows
  (offset axis 1, collapsed axis 0, start index map [0], slice sizes [1, C], index vector axis 1); and what a segment sum
  of rows \`upd : [E, C]\` into \`[N, C]\` at an integer column \`dst : [E, 1]\` is: a \`stablehlo.scatter\` with an \`add\` body
  (update window axis 1, inserted window axis 0, scatter-dims-to-operand-dims [0], index vector axis 1).

  Proved here, for every \`N\`, \`E\`, \`C\` and index width \`w\`, and for ANY dimension-number records with those fields:
  * \`gather_rows_apply\`: element \`(e, c)\` of the gather is the operand at row \`srcRow e\` — the start index \`src[e, 0]\`
    read as a signed integer and clamped into \`[0, N − 1]\` — and column \`c\`;
  * \`scatterAdd_rows_apply\`: element \`(n, c)\` of the exact scatter-add is the operand's element plus the sum, over the
    edges \`e\` whose index \`dst[e, 0]\`, read signed, is \`n\`, of \`upd[e, c]\` (an index outside \`[0, N)\` names no row: its
    update is dropped);
  * \`segsum_apply\`: the two composed.
-/
import Idealize.ShloMosaic.PureOps.Ideal
import Idealize.ShloMosaic.Lib.ValueIdx

noncomputable section

open scoped BigOperators

namespace Cert.Lib.SegmentSum

open Idealize.ShloMosaic Idealize.ShloMosaic.ValueIdx

/-- In \`Fin 2\`, \`1\` is not \`0\`. -/
theorem fin2_one_ne_zero : ¬ ((1 : Fin 2) = 0) := by decide

/-! ## The gather of rows -/

section Gather
variable {α : Type}

/-- The row gather's dimension numbers as a record literal (its conditions \`wf\` arbitrary). -/
abbrev rowsGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge \`e\` reads: its start index \`si[e, 0]\` as a signed integer, clamped into \`[0, N − 1]\`. -/
def srcRow {N E w : Nat} (hN : 0 < N) (si : IVec ⟨2, ![E, 1]⟩ w) (e : Fin E) : Fin N :=
  ⟨min (si (ix2 e 0)).toInt.toNat (N - 1), by omega⟩

/-- Row coordinate of the operand index: the clamped start index. -/
theorem rowsGather_operandIdx_zero {N E C w : Nat}
    (wf : GatherDims.WF ⟨2, ![N, C]⟩ ⟨2, ![E, 1]⟩ ⟨2, ![E, C]⟩ [1] [0] [] [0] [] 1 ![1, C])
    (si : IVec ⟨2, ![E, 1]⟩ w) (e : Fin E) (c : Fin C) :
    ((rowsGather N E C wf).operandIdx (ix2 e c) si 0).val = min (si (ix2 e 0)).toInt.toNat (N - 1) := by
  show (rowsGather N E C wf).start (ix2 e c) si 0 + (rowsGather N E C wf).batchCoord (ix2 e c) 0
    + (rowsGather N E C wf).offCoord (ix2 e c) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsGather N E C wf).startIndexMap from List.mem_singleton.mpr rfl)]
  have hsi : (rowsGather N E C wf).siIdx (ix2 e c) ⟨List.idxOf (0 : Fin 2) (rowsGather N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Column coordinate of the operand index: the result's column. -/
theorem rowsGather_operandIdx_one {N E C w : Nat}
    (wf : GatherDims.WF ⟨2, ![N, C]⟩ ⟨2, ![E, 1]⟩ ⟨2, ![E, C]⟩ [1] [0] [] [0] [] 1 ![1, C])
    (si : IVec ⟨2, ![E, 1]⟩ w) (e : Fin E) (c : Fin C) :
    ((rowsGather N E C wf).operandIdx (ix2 e c) si 1).val = c.val := by
  show (rowsGather N E C wf).start (ix2 e c) si 1 + (rowsGather N E C wf).batchCoord (ix2 e c) 1
    + (rowsGather N E C wf).offCoord (ix2 e c) 1 = _
  rw [GatherDims.batchCoord_eq_zero _ _ _ List.not_mem_nil, Nat.add_zero]
  have hs : (rowsGather N E C wf).start (ix2 e c) si 1 = 0 := by
    unfold GatherDims.start
    rw [dif_neg (show (1 : Fin 2) ∉ (rowsGather N E C wf).startIndexMap from
      fun h => absurd (List.mem_singleton.mp h) fin2_one_ne_zero)]
  rw [hs, Nat.zero_add]
  unfold GatherDims.offCoord
  rw [dif_pos (show (1 : Fin 2) ∈ (rowsGather N E C wf).sKept from (GatherDims.mem_sKept _ _).mpr
    ⟨fun h => absurd (List.mem_singleton.mp h) fin2_one_ne_zero, List.not_mem_nil⟩)]
  rfl

/-- The gather of rows at \`(e, c)\`, for the record literal. -/
theorem rowsGather_apply {N E C w : Nat} (hN : 0 < N)
    (wf : GatherDims.WF ⟨2, ![N, C]⟩ ⟨2, ![E, 1]⟩ ⟨2, ![E, C]⟩ [1] [0] [] [0] [] 1 ![1, C])
    (u : (⟨2, ![N, C]⟩ : Shape).Idx → α) (si : IVec ⟨2, ![E, 1]⟩ w) (e : Fin E) (c : Fin C) :
    Host.gather (rowsGather N E C wf) u si (ix2 e c) = u (ix2 (srcRow hN si e) c) := by
  unfold Host.gather
  congr 1
  funext a
  refine Fin.ext ?_
  match a with
  | ⟨0, _⟩ => exact rowsGather_operandIdx_zero wf si e c
  | ⟨1, _⟩ => exact rowsGather_operandIdx_one wf si e c

end Gather

/-! ## The scatter-add of rows -/

section Scatter

/-- The row scatter's dimension numbers as a record literal (its conditions \`wf\` arbitrary). -/
abbrev rowsScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (di : IVec ⟨2, ![E, 1]⟩ w) (e : Fin E) (c : Fin C)

/-- The window's start on the row axis: the scatter index \`di[e, 0]\`, read signed. -/
theorem rowsScatter_start_zero :
    (rowsScatter N E C wf).start (ix2 e c) di 0 = (di (ix2 e 0)).toInt := by
  unfold ScatterDims.start
  rw [dif_pos (show (0 : Fin 2) ∈ (rowsScatter N E C wf).scatterDimsToOperandDims from List.mem_singleton.mpr rfl)]
  have hsi : (rowsScatter N E C wf).siIdx (ix2 e c) ⟨List.idxOf (0 : Fin 2) (rowsScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The window's start on the column axis: \`0\`. -/
theorem rowsScatter_start_one : (rowsScatter N E C wf).start (ix2 e c) di 1 = 0 := by
  unfold ScatterDims.start
  rw [dif_neg (show (1 : Fin 2) ∉ (rowsScatter N E C wf).scatterDimsToOperandDims from
    fun h => absurd (List.mem_singleton.mp h) fin2_one_ne_zero)]

/-- The window coordinate on the row axis (an inserted axis): \`0\`. -/
theorem rowsScatter_window_zero : (rowsScatter N E C wf).window (ix2 e c) 0 = 0 := by
  unfold ScatterDims.window
  rw [dif_neg (show (0 : Fin 2) ∉ (rowsScatter N E C wf).sKept from
    fun h => of_decide_eq_true (List.mem_filter.mp h).2 (List.mem_singleton.mpr rfl))]

/-- The window coordinate on the column axis: the update's column. -/
theorem rowsScatter_window_one : (rowsScatter N E C wf).window (ix2 e c) 1 = c.val := by
  unfold ScatterDims.window
  rw [dif_pos (show (1 : Fin 2) ∈ (rowsScatter N E C wf).sKept from
    List.mem_filter.mpr ⟨List.mem_finRange _,
      decide_eq_true (fun h => absurd (List.mem_singleton.mp h) fin2_one_ne_zero)⟩)]
  rfl

/-- WHERE AN UPDATE LANDS: update \`(e, c')\` lands on operand element \`(n, c)\` exactly when its scatter index, read
    signed, is \`n\` and its column is \`c\`. -/
theorem rowsScatter_resultIdx?_eq_some_iff (c' : Fin C) (n : Fin N) :
    (rowsScatter N E C wf).resultIdx? (ix2 e c') di = some (ix2 n c) ↔
      (di (ix2 e 0)).toInt = (n.val : ℤ) ∧ c' = c := by
  unfold ScatterDims.resultIdx?
  constructor
  · intro h
    split at h
    · rename_i hh
      have hf := Option.some.inj h
      have e0 : ((rowsScatter N E C wf).start (ix2 e c') di 0 + ((rowsScatter N E C wf).window (ix2 e c') 0 : ℤ)).toNat
          = n.val := congrArg Fin.val (congrFun hf 0)
      have e1 : ((rowsScatter N E C wf).start (ix2 e c') di 1 + ((rowsScatter N E C wf).window (ix2 e c') 1 : ℤ)).toNat
          = c.val := congrArg Fin.val (congrFun hf 1)
      have p0 : 0 ≤ (rowsScatter N E C wf).start (ix2 e c') di 0 + ((rowsScatter N E C wf).window (ix2 e c') 0 : ℤ) :=
        (hh 0).1
      rw [rowsScatter_start_zero, rowsScatter_window_zero] at e0 p0
      rw [rowsScatter_start_one, rowsScatter_window_one] at e1
      refine ⟨by omega, Fin.ext (by omega)⟩
    · exact absurd h (by simp)
  · rintro ⟨ht, rfl⟩
    have hh : ∀ a, 0 ≤ (rowsScatter N E C wf).start (ix2 e c') di a + ((rowsScatter N E C wf).window (ix2 e c') a : ℤ) ∧
        (rowsScatter N E C wf).start (ix2 e c') di a + ((rowsScatter N E C wf).window (ix2 e c') a : ℤ)
          < ((⟨2, ![N, C]⟩ : Shape).size a : ℤ) := by
      refine Fin.forall_fin_two.mpr ⟨?_, ?_⟩
      · rw [rowsScatter_start_zero, rowsScatter_window_zero, ht]
        have := n.isLt
        show _ ∧ _ < (N : ℤ)
        omega
      · rw [rowsScatter_start_one, rowsScatter_window_one]
        have := c'.isLt
        show _ ∧ _ < (C : ℤ)
        omega
    rw [dif_pos hh]
    congr 1
    funext a
    refine Fin.ext ?_
    match a with
    | ⟨0, _⟩ =>
      show ((rowsScatter N E C wf).start (ix2 e c') di 0 + ((rowsScatter N E C wf).window (ix2 e c') 0 : ℤ)).toNat = n.val
      rw [rowsScatter_start_zero, rowsScatter_window_zero, ht]; omega
    | ⟨1, _⟩ =>
      show ((rowsScatter N E C wf).start (ix2 e c') di 1 + ((rowsScatter N E C wf).window (ix2 e c') 1 : ℤ)).toNat = c'.val
      rw [rowsScatter_start_one, rowsScatter_window_one]; omega

/-- THE SCATTER-ADD OF ROWS AT \`(n, c)\`, for the record literal: the operand's element plus the sum of column \`c\` of the
    updates of the edges whose scatter index, read signed, is \`n\`. -/
theorem rowsScatter_add_apply (z : (⟨2, ![N, C]⟩ : Shape).Idx → EReal) (upd : (⟨2, ![E, C]⟩ : Shape).Idx → EReal)
    (n : Fin N) :
    Ideal.hostScatterAdd (rowsScatter N E C wf) z di upd (ix2 n c) =
      z (ix2 n c) + ∑ e ∈ Finset.univ.filter (fun e : Fin E => (di (ix2 e 0)).toInt = (n.val : ℤ)), upd (ix2 e c) := by
  unfold Ideal.hostScatterAdd
  congr 1
  refine Finset.sum_nbij' (fun j => j 0) (fun e => ix2 e c) ?_ ?_ ?_ ?_ ?_
  · intro j hj
    have h := (Finset.mem_filter.mp hj).2
    rw [eq_ix2 j] at h
    exact Finset.mem_filter.mpr ⟨Finset.mem_univ _, ((rowsScatter_resultIdx?_eq_some_iff wf di (j 0) c (j 1) n).mp h).1⟩
  · intro e he
    have h := (Finset.mem_filter.mp he).2
    exact Finset.mem_filter.mpr ⟨Finset.mem_univ _, (rowsScatter_resultIdx?_eq_some_iff wf di e c c n).mpr ⟨h, rfl⟩⟩
  · intro j hj
    have h := (Finset.mem_filter.mp hj).2
    rw [eq_ix2 j] at h
    have hc := ((rowsScatter_resultIdx?_eq_some_iff wf di (j 0) c (j 1) n).mp h).2
    rw [← hc]; exact (eq_ix2 j).symm
  · intro e _; rfl
  · intro j hj
    have h := (Finset.mem_filter.mp hj).2
    rw [eq_ix2 j] at h
    have hc := ((rowsScatter_resultIdx?_eq_some_iff wf di (j 0) c (j 1) n).mp h).2
    rw [← hc]; exact congrArg upd (eq_ix2 j)

end Scatter

/-! ## Any records with those fields, and the two composed -/

section Records
variable {N E C w : Nat}

/-- THE GATHER OF ROWS AT \`(e, c)\`: the operand at row \`srcRow e\` — the start index \`si[e, 0]\` read signed and clamped into
    \`[0, N − 1]\` — and column \`c\`, for any record with the row gather's fields. -/
theorem gather_rows_apply {α : Type} (hN : 0 < N) (g : GatherDims ⟨2, ![N, C]⟩ ⟨2, ![E, 1]⟩ ⟨2, ![E, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C])
    (u : (⟨2, ![N, C]⟩ : Shape).Idx → α) (si : IVec ⟨2, ![E, 1]⟩ w) (e : Fin E) (c : Fin C) :
    Host.gather g u si (ix2 e c) = u (ix2 (srcRow hN si e) c) := by
  obtain ⟨od, cd, ob, sb, sm, iv, ss, wf⟩ := g
  simp only at h1 h2 h3 h4 h5 h6 h7
  subst h1 h2 h3 h4 h5 h6 h7
  exact rowsGather_apply hN wf u si e c

/-- THE SCATTER-ADD OF ROWS AT \`(n, c)\`: the operand's element plus the sum, over the edges \`e\` whose scatter index
    \`di[e, 0]\`, read signed, is \`n\`, of \`upd[e, c]\`, for any record with the row scatter's fields. -/
theorem scatterAdd_rows_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (z : (⟨2, ![N, C]⟩ : Shape).Idx → EReal) (di : IVec ⟨2, ![E, 1]⟩ w) (upd : (⟨2, ![E, C]⟩ : Shape).Idx → EReal)
    (n : Fin N) (c : Fin C) :
    Ideal.hostScatterAdd d z di upd (ix2 n c) =
      z (ix2 n c) + ∑ e ∈ Finset.univ.filter (fun e : Fin E => (di (ix2 e 0)).toInt = (n.val : ℤ)), upd (ix2 e c) := by
  obtain ⟨uw, iw, sd, iv, wf⟩ := d
  simp only at h1 h2 h3 h4
  subst h1 h2 h3 h4
  exact rowsScatter_add_apply wf di c z upd n

/-- THE SEGMENT SUM OF GATHERED ROWS AT \`(n, c)\`: the operand's element plus the sum, over the edges \`e\` whose
    destination index, read signed, is \`n\`, of column \`c\` of the source row of \`e\`. -/
theorem segsum_apply (hN : 0 < N) (d : ScatterDims ⟨2, ![N, C]⟩ ⟨2, ![E, 1]⟩ ⟨2, ![E, C]⟩)
    (g : GatherDims ⟨2, ![N, C]⟩ ⟨2, ![E, 1]⟩ ⟨2, ![E, C]⟩)
    (hd1 : d.updateWindowDims = [1]) (hd2 : d.insertedWindowDims = [0]) (hd3 : d.scatterDimsToOperandDims = [0])
    (hd4 : d.indexVectorDim = 1)
    (hg1 : g.offsetDims = [1]) (hg2 : g.collapsedSliceDims = [0]) (hg3 : g.operandBatchingDims = [])
    (hg4 : g.startIndicesBatchingDims = []) (hg5 : g.startIndexMap = [0]) (hg6 : g.indexVectorDim = 1)
    (hg7 : g.sliceSizes = ![1, C])
    (z u : (⟨2, ![N, C]⟩ : Shape).Idx → EReal) (di si : IVec ⟨2, ![E, 1]⟩ w) (n : Fin N) (c : Fin C) :
    Ideal.hostScatterAdd d z di (Host.gather g u si) (ix2 n c) =
      z (ix2 n c) + ∑ e ∈ Finset.univ.filter (fun e : Fin E => (di (ix2 e 0)).toInt = (n.val : ℤ)),
        u (ix2 (srcRow hN si e) c) := by
  rw [scatterAdd_rows_apply d hd1 hd2 hd3 hd4]
  congr 1
  exact Finset.sum_congr rfl fun e _ => gather_rows_apply hN g hg1 hg2 hg3 hg4 hg5 hg6 hg7 u si e c

end Records

end Cert.Lib.SegmentSum

end
-- ==== Proof.Bridge.lean ====
/-
  The two programs compute one function: the algebra, on the extended reals, under finite inputs.

  Write `D n = max(deg n, 1)` for the clamped in-degree (so `1 ≤ D n`), `E n` for the edges whose destination is `n`
  and `σ e` for edge `e`'s (wrapped, clamped) source row. Three things differ between the programs.
  • The kernel multiplies by the column `1 / D n` where the reference divides by `D n`: for `1 ≤ d` both are
    `· d⁻¹`, with no finiteness needed.
  • The kernel adds the bias after the second matrix product, the reference before: addition of extended reals is
    commutative and associative.
  • In the second layer the kernel projects first and aggregates after — `(∑_{e ∈ E n} ∑_k h (σ e) k · C k j) · (1 / D n)` —
    where the reference aggregates, divides and then projects — `∑_k ((∑_{e ∈ E n} h (σ e) k) / D n) · C k j`. The two
    agree when the hidden layer `h` and the weight `C` are real-valued (exchange the two finite sums and distribute),
    and the hidden layer is real-valued because the features, weights and biases are (the precondition) and the
    layer-1 neighbour sums are finite sums of features.
-/
import proofs.«113687_j1168231104600_2_alg».proof.Proof.RefValue
import proofs.«113687_j1168231104600_2_alg».proof.Proof.SageLaw
import proofs.«113687_j1168231104600_2_alg».proof.Proof.SageSpec
import proofs.«113687_j1168231104600_2_alg».proof.Proof.LibSegmentSum
import Idealize.ShloMosaic.Lib.ValueLayout
import Idealize.ShloMosaic.Lib.Pipeline.Value

noncomputable section

namespace Cert.Sage.Bridge

open Cert.ReferenceIdeal Cert.ReferenceIdeal.RefValue Cert.Sage.Law Cert.Sage.Spec Cert.Lib.SegmentSum
open Idealize.ShloMosaic Idealize.ShloMosaic.ValueIdx

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The host's division of two arrays, at an index, is the division of the entries. -/
theorem hostDivf_apply {s : Shape} (a b : FVec Ideal s .f32) (i : s.Idx) :
    Host.divf a b i = Ideal.div (a i) (b i) := rfl

variable (x : (⟨S100000x128, .f32⟩ : BufTy).Contents (Elt Ideal)) (ei : (⟨S2x400000, .i32⟩ : BufTy).Contents (Elt Ideal))
  (W1l : (⟨S128x256, .f32⟩ : BufTy).Contents (Elt Ideal)) (b1 : (⟨S256, .f32⟩ : BufTy).Contents (Elt Ideal))
  (W1r : (⟨S128x256, .f32⟩ : BufTy).Contents (Elt Ideal)) (W2l : (⟨S256x64, .f32⟩ : BufTy).Contents (Elt Ideal))
  (b2 : (⟨S64, .f32⟩ : BufTy).Contents (Elt Ideal)) (W2r : (⟨S256x64, .f32⟩ : BufTy).Contents (Elt Ideal))

/-- The clamped in-degree is at least one. -/
theorem one_le_Dm' (n : Fin 100000) : 1 ≤ Dm ei (ix1 n) := by
  have h := one_le_Dm ei n
  rwa [ofBits_one_f32] at h

/-- The column of reciprocal clamped in-degrees: the reshape of `1 / max(deg, 1)`. -/
def qcol (hsc : (⟨1, ![100000]⟩ : Shape).ShapeCasts ⟨2, ![100000, 1]⟩) : (⟨2, ![100000, 1]⟩ : Shape).Idx → EReal :=
  shapeCast ⟨2, ![100000, 1]⟩ (Host.divf (F := Ideal) (φ := .f32) onesN (Dm ei)) hsc

theorem qcol_apply (hsc : (⟨1, ![100000]⟩ : Shape).ShapeCasts ⟨2, ![100000, 1]⟩) (n : Fin 100000) :
    qcol ei hsc (ix2 n (0 : Fin 1)) = Ideal.div 1 (Dm ei (ix1 n)) := by
  unfold qcol
  refine (shapeCast_a_a1_apply _ hsc n 0).trans ?_
  rw [hostDivf_apply, onesN_apply, ofBits_one_f32]

/-- The kernel's hidden layer is the reference's. -/
theorem hid_eq (hsc : (⟨1, ![100000]⟩ : Shape).ShapeCasts ⟨2, ![100000, 1]⟩)
    (h1 : (⟨1, ![256]⟩ : Shape).ShapeCasts ⟨2, ![1, 256]⟩) :
    hidArr (M1 x ei) x (qcol ei hsc) W1l W1r (shapeCast ⟨2, ![1, 256]⟩ b1 h1) = hid x ei W1l b1 W1r := by
  funext i
  obtain ⟨n, c, rfl⟩ : ∃ (n : Fin 100000) (c : Fin 256), i = ix2 n c := ⟨i 0, i 1, eq_ix2 i⟩
  rw [hid_apply]
  show hidAt (M1 x ei) x (qcol ei hsc) W1l W1r (shapeCast ⟨2, ![1, 256]⟩ b1 h1) n c = _
  unfold hidAt
  rw [qcol_apply, shapeCast_a_1a_apply]
  simp only [mul_div_one _ _ (one_le_Dm' ei n)]
  exact congrArg (max · 0) (add_right_comm _ _ _)

/-- The layer-1 neighbour sums of real features are real. -/
theorem M1_real (hx : ∀ i, IsReal (x i)) (i : S100000x128.Idx) : IsReal (M1 x ei i) := by
  rw [M1_eq]
  show IsReal (Ideal.hostScatterAdd _ zeros128 (dI ei) (Host.gather _ x (sI ei)) i)
  unfold Ideal.hostScatterAdd
  refine isReal_add ?_ (isReal_sum _ _ fun j _ => hx _)
  rw [zeros128_apply]; exact isReal_zero

/-- The hidden layer of real inputs is real. -/
theorem hid_real (hx : ∀ i, IsReal (x i)) (hW1l : ∀ i, IsReal (W1l i)) (hb1 : ∀ i, IsReal (b1 i))
    (hW1r : ∀ i, IsReal (W1r i)) (n : Fin 100000) (c : Fin 256) : IsReal (hid x ei W1l b1 W1r (ix2 n c)) := by
  rw [hid_apply]
  refine isReal_max (isReal_add (isReal_add (isReal_sum _ _ fun k _ => ?_) (hb1 _)) (isReal_sum _ _ fun k _ => ?_)) isReal_zero
  · exact isReal_mul (isReal_div (M1_real x ei hx _) (one_le_Dm' ei n)) (hW1l _)
  · exact isReal_mul (hx _) (hW1r _)

end Cert.Sage.Bridge

end
-- ==== Proof.BridgeOut.lean ====
/-
  The second layer: aggregating the projected rows is projecting the aggregate.

  With `E n` the edges into node `n`, `σ e` the source row of edge `e`, `h` the (real-valued) hidden layer, `C` the
  (real-valued) projection weight and `1 ≤ D n` the clamped in-degree:
      (0 + ∑_{e ∈ E n} ∑_k h (σ e) k · C k j) · (1 / D n)  =  ∑_k ((0 + ∑_{e ∈ E n} h (σ e) k) / D n) · C k j.
  The left side is what the kernel program's second region reads (the scatter-add of the gathered PROJECTED rows,
  times the reciprocal column); the right side is the reference's division and matrix product of the scatter-add of
  the gathered hidden rows. Both scatter-adds of gathered rows are read at an index by the general segment-sum lemma.
-/
import proofs.«113687_j1168231104600_2_alg».proof.Proof.Bridge

noncomputable section

namespace Cert.Sage.Bridge

open Cert.ReferenceIdeal Cert.ReferenceIdeal.RefValue Cert.Sage.Law Cert.Sage.Spec Cert.Lib.SegmentSum
open Idealize.ShloMosaic Idealize.ShloMosaic.ValueIdx

variable (x : (⟨S100000x128, .f32⟩ : BufTy).Contents (Elt Ideal)) (ei : (⟨S2x400000, .i32⟩ : BufTy).Contents (Elt Ideal))
  (W1l : (⟨S128x256, .f32⟩ : BufTy).Contents (Elt Ideal)) (b1 : (⟨S256, .f32⟩ : BufTy).Contents (Elt Ideal))
  (W1r : (⟨S128x256, .f32⟩ : BufTy).Contents (Elt Ideal)) (W2l : (⟨S256x64, .f32⟩ : BufTy).Contents (Elt Ideal))
  (b2 : (⟨S64, .f32⟩ : BufTy).Contents (Elt Ideal)) (W2r : (⟨S256x64, .f32⟩ : BufTy).Contents (Elt Ideal))

/-- The edges whose destination is node `n`: the scatter-add's index read signed equals `n`. -/
def inEdges (n : Fin 100000) : Finset (Fin 400000) :=
  Finset.univ.filter (fun e : Fin 400000 => ((dI ei) (ix2 e 0)).toInt = (n.val : ℤ))

/-- The source row of edge `e`: the gather's start index read signed and clamped into the rows. -/
def srcOf : Fin 400000 → Fin 100000 := srcRow (by decide : 0 < 100000) (sI ei)

/-- The reference's neighbour sums of hidden rows, at node `n`, channel `k`. -/
theorem A2_apply (n : Fin 100000) (k : Fin 256) :
    A2 x ei W1l b1 W1r (ix2 n k) = 0 + ∑ e ∈ inEdges ei n, hid x ei W1l b1 W1r (ix2 (srcOf ei e) k) := by
  have e1 : A2 x ei W1l b1 W1r
      = Ideal.hostScatterAdd scatter_S100000x256_S400000x1_S400000x256_1_0_0_1 zeros256 (dI ei)
          (Host.gather gather_S100000x256_S400000x1_S400000x256_1_0_n_n_0_1_1256 (hid x ei W1l b1 W1r) (sI ei)) :=
    (A2_eq x ei W1l b1 W1r).trans (Ideal.hostScatterAdd_def _ _ _ _ _)
  rw [e1]
  refine (segsum_apply (by decide : 0 < 100000) scatter_S100000x256_S400000x1_S400000x256_1_0_0_1
    gather_S100000x256_S400000x1_S400000x256_1_0_n_n_0_1_1256 rfl rfl rfl rfl rfl rfl rfl rfl rfl rfl rfl
    zeros256 (hid x ei W1l b1 W1r) (dI ei) (sI ei) n k).trans ?_
  rw [zeros256_apply]
  rfl

/-- A scatter-add into zeros of gathered rows of a 64-wide array `u`, at node `n`, channel `j`. -/
theorem msg_apply
    (d : ScatterDims (⟨2, ![100000, 64]⟩ : Shape) (⟨2, ![400000, 1]⟩ : Shape) (⟨2, ![400000, 64]⟩ : Shape))
    (g : GatherDims (⟨2, ![100000, 64]⟩ : Shape) (⟨2, ![400000, 1]⟩ : Shape) (⟨2, ![400000, 64]⟩ : Shape))
    (hd1 : d.updateWindowDims = [1]) (hd2 : d.insertedWindowDims = [0]) (hd3 : d.scatterDimsToOperandDims = [0])
    (hd4 : d.indexVectorDim = 1)
    (hg1 : g.offsetDims = [1]) (hg2 : g.collapsedSliceDims = [0]) (hg3 : g.operandBatchingDims = [])
    (hg4 : g.startIndicesBatchingDims = []) (hg5 : g.startIndexMap = [0]) (hg6 : g.indexVectorDim = 1)
    (hg7 : g.sliceSizes = ![1, 64])
    (z u : (⟨2, ![100000, 64]⟩ : Shape).Idx → EReal) (hz : ∀ i, z i = 0) (n : Fin 100000) (j : Fin 64) :
    Host.scatterAdd (F := Ideal) (φ := .f32) d z (dI ei) (Host.gather g u (sI ei)) (ix2 n j)
      = 0 + ∑ e ∈ inEdges ei n, u (ix2 (srcOf ei e) j) := by
  refine (congrFun (Ideal.hostScatterAdd_def d .single z (dI ei) (Host.gather g u (sI ei))) (ix2 n j)).trans ?_
  refine (segsum_apply (by decide : 0 < 100000) d g hd1 hd2 hd3 hd4 hg1 hg2 hg3 hg4 hg5 hg6 hg7 z u (dI ei) (sI ei)
    n j).trans ?_
  rw [hz]
  rfl

/-- THE LAW at node `n`, channel `j`: the mean of the projected source rows is the projection of the mean of the
    source rows, for a real-valued hidden layer and projection weight. -/
theorem mean_proj (hx : ∀ i, IsReal (x i)) (hW1l : ∀ i, IsReal (W1l i)) (hb1 : ∀ i, IsReal (b1 i))
    (hW1r : ∀ i, IsReal (W1r i)) (hW2l : ∀ i, IsReal (W2l i)) (n : Fin 100000) (j : Fin 64) :
    (0 + ∑ e ∈ inEdges ei n, projArr (hid x ei W1l b1 W1r) W2l (ix2 (srcOf ei e) j)) * Ideal.div 1 (Dm ei (ix1 n))
      = ∑ k : Fin 256, Ideal.div (A2 x ei W1l b1 W1r (ix2 n k)) (Dm ei (ix1 n)) * W2l (ix2 k j) := by
  have key := segmean_matmul (inEdges ei n) (srcOf ei) (fun i k => hid x ei W1l b1 W1r (ix2 i k))
    (fun k => W2l (ix2 k j)) (Dm ei (ix1 n)) (fun i k => hid_real x ei W1l b1 W1r hx hW1l hb1 hW1r i k)
    (fun k => hW2l _) (one_le_Dm' ei n)
  refine Eq.trans ?_ (key.trans ?_)
  · rfl
  · exact Finset.sum_congr rfl fun k _ => by rw [A2_apply]

/-- THE SECOND LAYER: the kernel's array — the neighbour sums of the PROJECTED hidden rows times the reciprocal
    column, plus the bias row, plus the hidden rows times the fourth weight — is the reference's result, when the
    features, the first layer's weights and bias and the projection weight are real-valued. Stated for any gather
    and scatter records of the printed row-gather / row-scatter-add form and any zero array. -/
theorem out_eq
    (d : ScatterDims (⟨2, ![100000, 64]⟩ : Shape) (⟨2, ![400000, 1]⟩ : Shape) (⟨2, ![400000, 64]⟩ : Shape))
    (g : GatherDims (⟨2, ![100000, 64]⟩ : Shape) (⟨2, ![400000, 1]⟩ : Shape) (⟨2, ![400000, 64]⟩ : Shape))
    (hd1 : d.updateWindowDims = [1]) (hd2 : d.insertedWindowDims = [0]) (hd3 : d.scatterDimsToOperandDims = [0])
    (hd4 : d.indexVectorDim = 1)
    (hg1 : g.offsetDims = [1]) (hg2 : g.collapsedSliceDims = [0]) (hg3 : g.operandBatchingDims = [])
    (hg4 : g.startIndicesBatchingDims = []) (hg5 : g.startIndexMap = [0]) (hg6 : g.indexVectorDim = 1)
    (hg7 : g.sliceSizes = ![1, 64])
    (z : (⟨2, ![100000, 64]⟩ : Shape).Idx → EReal) (hz : ∀ i, z i = 0)
    (hsc : (⟨1, ![100000]⟩ : Shape).ShapeCasts ⟨2, ![100000, 1]⟩)
    (h2 : (⟨1, ![64]⟩ : Shape).ShapeCasts ⟨2, ![1, 64]⟩)
    (hx : ∀ i, IsReal (x i)) (hW1l : ∀ i, IsReal (W1l i)) (hb1 : ∀ i, IsReal (b1 i))
    (hW1r : ∀ i, IsReal (W1r i)) (hW2l : ∀ i, IsReal (W2l i)) :
    outArr (Host.scatterAdd (F := Ideal) (φ := .f32) d z (dI ei) (Host.gather g (projArr (hid x ei W1l b1 W1r) W2l) (sI ei)))
        (hid x ei W1l b1 W1r) (qcol ei hsc) W2r (shapeCast ⟨2, ![1, 64]⟩ b2 h2)
      = out x ei W1l b1 W1r W2l b2 W2r := by
  funext i
  obtain ⟨n, j, rfl⟩ : ∃ (n : Fin 100000) (j : Fin 64), i = ix2 n j := ⟨i 0, i 1, eq_ix2 i⟩
  rw [out_def, out_apply]
  show outAt (Host.scatterAdd (F := Ideal) (φ := .f32) d z (dI ei) (Host.gather g (projArr (hid x ei W1l b1 W1r) W2l) (sI ei)))
    (hid x ei W1l b1 W1r) (qcol ei hsc) W2r (shapeCast ⟨2, ![1, 64]⟩ b2 h2) n j = _
  unfold outAt
  rw [qcol_apply, shapeCast_a_1a_apply,
    msg_apply ei d g hd1 hd2 hd3 hd4 hg1 hg2 hg3 hg4 hg5 hg6 hg7 z _ hz n j,
    mean_proj x ei W1l b1 W1r W2l hx hW1l hb1 hW1r hW2l n j]

end Cert.Sage.Bridge

end
-- ==== Proof.SageFinite.lean ====
import proofs.«113687_j1168231104600_2_alg».proof.Pre_finite_inputs
import proofs.«113687_j1168231104600_2_alg».proof.Proof.Gen.Pre_finite_inputs
import proofs.«113687_j1168231104600_2_alg».proof.Proof.SageLaw
import Idealize.ShloMosaic.Lib.ReduceAll
import Idealize.ShloMosaic.Lib.ValueIdx
import Idealize.ShloMosaic.PureOps.Ideal

/-!
# The precondition decoded: every float input is a real number

The printed predicate is the conjunction, over the seven float arguments `a`, of
`all (|a| < +∞)`.  At the extended reals `|x| = max x (-x)`, the bit pattern `0x7F800000` denotes
`⊤`, and `max x (-x) < ⊤` excludes exactly `x = ⊥` and `x = ⊤`; so the predicate says that every
entry of every float argument is an ordinary real number.
-/

noncomputable section

namespace Cert.Sage.Finite

open Idealize.ShloMosaic Cert.Pre_finite_inputs Cert.Sage.Law

/-- A rank-0 array has exactly one index. -/
instance : Subsingleton S_.Idx := ⟨fun a b => funext fun d => d.elim0⟩

/-- The f32 pattern `0x7F800000` (all-ones exponent, zero fraction, sign clear) denotes `+∞`. -/
theorem inf_eq : Ideal.ofBits .f32 0x7F800000#32 = (⊤ : EReal) := by
  simp [Ideal.ofBits, Ideal.ieee]

theorem ofBool_eq_one (b : Bool) : BitVec.ofBool b = 1#1 ↔ b = true := by cases b <;> decide

/-- `|x| < +∞` holds only at a real number: at `⊥` and at `⊤` the absolute value `max x (-x)` is `⊤`. -/
theorem isReal_of_abs_lt_inf (x : EReal)
    (h : Ideal.cmp .olt (max x (-x)) (Ideal.ofBits .f32 0x7F800000#32) = 1#1) : IsReal x := by
  rw [inf_eq] at h
  unfold Ideal.cmp at h
  rw [ofBool_eq_one] at h
  simp only [decide_eq_true_eq] at h
  induction x with
  | bot => simp at h
  | coe r => exact ⟨r, rfl⟩
  | top => simp at h

/-- One conjunct of the predicate: when the reduction by `and` of `|a| < +∞` over every axis is 1,
    every entry of `a` is a real number. -/
theorem all_real {S : Shape} {axes : List (Fin S.rank)} (a : FVec Ideal S .f32)
    (dims : Fin S_.rank → Fin S.rank) (hb : S_.BroadcastsInDim S dims)
    (hr : S.ReducesTo axes S_) (hu : 0 < S_.numel)
    (e : Host.reduce IntOp.andi
          (cmpf .olt (Host.absf a) (broadcastInDim S dims hb (constant S_ .f32 0x7F800000#32)))
          (constantI S_ 1 1#1) hr hu ValueIdx.ix0 = 1#1) (i : S.Idx) : IsReal (a i) :=
  isReal_of_abs_lt_inf (a i) (Host.reduce_andi_all _ _ hr hu ValueIdx.ix0 e i)

/-- The precondition at the extended reals says that every entry of each of the seven float
    arguments is a real number (the integer edge array `a1` is unconstrained). -/
theorem finite_of_pre (a0 : FVec Ideal S100000x128 .f32) (a1 : IVec S2x400000 32)
    (a2 : FVec Ideal S128x256 .f32) (a3 : FVec Ideal S256 .f32) (a4 : FVec Ideal S128x256 .f32)
    (a5 : FVec Ideal S256x64 .f32) (a6 : FVec Ideal S64 .f32) (a7 : FVec Ideal S256x64 .f32)
    (h : Cert.Pre_finite_inputs.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧
      (∀ i, IsReal (a5 i)) ∧ (∀ i, IsReal (a6 i)) ∧ (∀ i, IsReal (a7 i)) := by
  have e := congrFun h ValueIdx.ix0
  dsimp only [fn, fn_part1, andi] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨all_real a0 _ _ _ _ e0, all_real a2 _ _ _ _ e2, all_real a3 _ _ _ _ e3,
    all_real a4 _ _ _ _ e4, all_real a5 _ _ _ _ e5, all_real a6 _ _ _ _ e6,
    all_real a7 _ _ _ _ e7⟩

end Cert.Sage.Finite
-- ==== Proof.KFinal.lean ====
/-
  The idealized kernel program's result array is the reference's function of the arguments.

  The result is the second region's output array: `Spec.outArr` of the arrays that region finds (KBlocks1). Those
  are: the neighbour sums of the rows of the first region's projected array, that region's hidden array, the
  reciprocal column, the fourth weight and the second bias row (KHost1a, KHost1b); the first region's two arrays are
  `Spec.hidArr` and `Spec.projArr` of the arrays IT finds (KBlocks0), which the first host stretch computed from the
  arguments (KHost0a, KHost0b). With every input real-valued (the precondition, decoded in SageFinite) the algebra
  of Bridge identifies the whole with the reference's result.
-/
import proofs.«113687_j1168231104600_2_alg».proof.Proof.KernelRun
import proofs.«113687_j1168231104600_2_alg».proof.Proof.KBlocks0
import proofs.«113687_j1168231104600_2_alg».proof.Proof.KBlocks1
import proofs.«113687_j1168231104600_2_alg».proof.Proof.KHost0a
import proofs.«113687_j1168231104600_2_alg».proof.Proof.KHost0b
import proofs.«113687_j1168231104600_2_alg».proof.Proof.KHost1a
import proofs.«113687_j1168231104600_2_alg».proof.Proof.KHost1b
import proofs.«113687_j1168231104600_2_alg».proof.Proof.Bridge
import proofs.«113687_j1168231104600_2_alg».proof.Proof.BridgeOut
import proofs.«113687_j1168231104600_2_alg».proof.Proof.SageFinite

set_option maxRecDepth 16384

noncomputable section

namespace Cert.KernelIdeal.KFinal

open Cert.KernelIdeal Cert.KernelIdeal.Gen Cert.KernelIdeal.KArgs
open Cert.KernelIdeal.KHost0a Cert.KernelIdeal.KHost0b Cert.KernelIdeal.KHost1a Cert.KernelIdeal.KHost1b
open Cert.Sage.Spec Cert.Sage.Law
open Idealize.ShloMosaic Idealize.ShloMosaic.TcCoe
open Idealize.SL Idealize.SL.Sem

variable (m : (ℓ : Loc nD τ sig) → Buf (Elt Ideal) ℓ) (ρ : Dev nD → PrngReg)

/-- The array of zeros the neighbour sums are added into reads zero everywhere. -/
theorem zeros64_apply (i : S100000x64.Idx) :
    broadcastInDim S100000x64 ![] bcast_S_S100000x64 (constant (F := Ideal) S_ .f32 0x00000000#32) i = 0 := by
  show Ideal.ofBits .f32 0x00000000#32 = 0
  exact Ideal.ofBits_zero_f32

set_option maxHeartbeats 1000000 in
/-- Under the precondition, the result array after the run is the reference's result term of the arguments. -/
theorem result_eq (c : Dev nD)
    (hpre : Cert.Pre_finite_inputs.fn (F := Ideal) (ax m c) (aei m c) (aW1l m c) (ab1 m c) (aW1r m c) (aW2l m c)
      (ab2 m c) (aW2r m c) = fun _ => 1#1) :
    ((dat1 (V3 m ρ) c).arrAt 5 cfg1.N : S100000x64.Idx → EReal)
      = Cert.ReferenceIdeal.RefValue.out (ax m c) (aei m c) (aW1l m c) (ab1 m c) (aW1r m c) (aW2l m c) (ab2 m c)
          (aW2r m c) := by
  obtain ⟨hx, hW1l, hb1, hW1r, hW2l, hb2, hW2r⟩ :=
    Cert.Sage.Finite.finite_of_pre (ax m c) (aei m c) (aW1l m c) (ab1 m c) (aW1r m c) (aW2l m c) (ab2 m c) (aW2r m c) hpre
  rw [KBlocks1.final5 (V3 m ρ) c, V3_v37 m ρ c, V3_v27_0 m ρ c, V3_v12 m ρ c, V3_v38 m ρ c, V3_v39 m ρ c,
    KBlocks0.final7 (V1 m ρ) c, KBlocks0.final8 (V1 m ρ) c, V1_v22 m ρ c, V1_arg0 m ρ c, V1_v12 m ρ c, V1_v23 m ρ c,
    V1_v24 m ρ c, V1_v26 m ρ c, V1_v25 m ρ c]
  have hH : hidArr (Cert.ReferenceIdeal.RefValue.M1 (ax m c) (aei m c)) (ax m c)
      (shapeCast S100000x1 (Host.divf (F := Ideal) (φ := .f32) Cert.ReferenceIdeal.RefValue.onesN
        (Cert.ReferenceIdeal.RefValue.Dm (aei m c))) shapeCasts_S100000_S100000x1)
      (aW1l m c) (aW1r m c) (shapeCast S1x256 (ab1 m c) shapeCasts_S256_S1x256)
      = Cert.ReferenceIdeal.RefValue.hid (ax m c) (aei m c) (aW1l m c) (ab1 m c) (aW1r m c) :=
    Cert.Sage.Bridge.hid_eq (ax m c) (aei m c) (aW1l m c) (ab1 m c) (aW1r m c) shapeCasts_S100000_S100000x1
      shapeCasts_S256_S1x256
  rw [hH]
  exact Cert.Sage.Bridge.out_eq (ax m c) (aei m c) (aW1l m c) (ab1 m c) (aW1r m c) (aW2l m c) (ab2 m c) (aW2r m c)
    scatter_S100000x64_S400000x1_S400000x64_1_0_0_1 gather_S100000x64_S400000x1_S400000x64_1_0_n_n_0_1_164
    rfl rfl rfl rfl rfl rfl rfl rfl rfl rfl rfl _ zeros64_apply shapeCasts_S100000_S100000x1 shapeCasts_S64_S1x64
    hx hW1l hb1 hW1r hW2l

end Cert.KernelIdeal.KFinal

end
-- ==== Proof.lean ====
/-
  Two-layer GraphSAGE with mean aggregation over 100000 nodes and 400000 edges: the Pallas program against its jnp
  reference, on the extended reals.

  Both programs compute, with `D n = max(in-degree of n, 1)`, `E n` the edges into node `n` and `σ e` the source of
  edge `e`,
      h n   = relu((∑_{e ∈ E n} x (σ e)) / D n · W1l + b1 + x n · W1r),
      out n = (∑_{e ∈ E n} h (σ e)) / D n · W2l + b2 + h n · W2r.
  The kernel program multiplies by the reciprocal column `1 / D` instead of dividing, adds the first bias after the
  second product, and in the second layer aggregates the already projected rows `h · W2l` instead of projecting the
  aggregate: equal by linearity of a finite sum once the hidden layer is real-valued, which it is for finite inputs.
  The frames of the two kernel programs are the generated ones; the reference's frame is its generated run with
  the result dropped; the idealization rewrote nothing, so the kernel program is its own idealization.
-/
import proofs.«113687_j1168231104600_2_alg».proof.Defs
import proofs.«113687_j1168231104600_2_alg».proof.Proof.Gen.Kernel
import proofs.«113687_j1168231104600_2_alg».proof.Proof.Gen.Kernel.Frame
import proofs.«113687_j1168231104600_2_alg».proof.Proof.Gen.KernelIdeal
import proofs.«113687_j1168231104600_2_alg».proof.Proof.Gen.KernelIdeal.Frame
import proofs.«113687_j1168231104600_2_alg».proof.Proof.Gen.ReferenceIdeal
import proofs.«113687_j1168231104600_2_alg».proof.Proof.Gen.ReferenceIdeal.Run
import proofs.«113687_j1168231104600_2_alg».proof.Proof.Gen.ReferenceIdeal.Read
import proofs.«113687_j1168231104600_2_alg».proof.Proof.Gen.Pre_finite_inputs
import proofs.«113687_j1168231104600_2_alg».proof.Proof.RefValue
import proofs.«113687_j1168231104600_2_alg».proof.Proof.KernelRun
import proofs.«113687_j1168231104600_2_alg».proof.Proof.KFinal
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := Cert.ReferenceIdeal.RefValue.frame_ri

/-- The idealization rewrote no operation: nothing to preserve. -/
theorem preserves : Cert.preserves_Kernel_KernelIdeal := trivial

/-- From memories agreeing on the arguments both programs run, and the kernel program's result array — the second
    region's output after its write-backs — is the reference's result term of the arguments. -/
theorem algebraic : Cert.algebraic_KernelIdeal_ReferenceIdeal := by
  intro m ρ m' ρ' hpre hagree
  refine ⟨fun c => (Cert.KernelIdeal.Gen.dat1 (Cert.KernelIdeal.Gen.V3 m ρ) c).arrAt 5 Cert.KernelIdeal.cfg1.N,
    Cert.KernelIdeal.KRun.run_value m ρ, ?_⟩
  refine (θ_run Cert.ReferenceIdeal.defs _ _).mono (fun _ h c => ⟨(h c).1.trans ?_, (h c).2⟩)
    (Cert.ReferenceIdeal.RefValue.run_value m' ρ')
  obtain ⟨a0, a1, a2, a3, a4, a5, a6, a7⟩ := hagree c
  rw [a0, a1, a2, a3, a4, a5, a6, a7]
  exact (Cert.KernelIdeal.KFinal.result_eq m ρ c (hpre c)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
